-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x256 : Shape := ⟨4, ![4, 64, 256, 256]⟩
abbrev S4x9x256x256 : Shape := ⟨4, ![4, 9, 256, 256]⟩
abbrev S_ : Shape := ⟨0, ![]⟩

class Facts : Prop where
  bcast_S_S4x64x256x256 : S_.BroadcastsInDim S4x64x256x256 (![] : Fin 0 → Fin S4x64x256x256.rank)
  reducesTo_S4x64x256x256_S_d0_1_2_3 : S4x64x256x256.ReducesTo [0, 1, 2, 3] S_
  h_S_ : 0 < S_.numel
  bcast_S_S4x9x256x256 : S_.BroadcastsInDim S4x9x256x256 (![] : Fin 0 → Fin S4x9x256x256.rank)
  reducesTo_S4x9x256x256_S_d0_1_2_3 : S4x9x256x256.ReducesTo [0, 1, 2, 3] S_

variable [Facts]

def fn {F : FTy → Type} [FloatOps F] (main_arg0 : FVec F S4x64x256x256 .f32) (main_arg1 : FVec F S4x9x256x256 .f32) : IVec S_ 1 :=
  let main_v0 : FVec F S4x64x256x256 .f32 := Host.absf main_arg0
  let main_cst : FVec F S_ .f32 := constant S_ .f32 0x7F800000#32
  let main_v1 : FVec F S4x64x256x256 .f32 := broadcastInDim S4x64x256x256 ![] bcast_S_S4x64x256x256 main_cst
  let main_v2 : IVec S4x64x256x256 1 := cmpf .olt main_v0 main_v1
  let main_c : IVec S_ 1 := constantI S_ 1 1#1
  let main_v3 : IVec S_ 1 := (fun x v => Host.reduce IntOp.andi x v reducesTo_S4x64x256x256_S_d0_1_2_3 h_S_) main_v2 main_c
  let main_v4 : FVec F S4x9x256x256 .f32 := Host.absf main_arg1
  let main_cst_0 : FVec F S_ .f32 := constant S_ .f32 0x7F800000#32
  let main_v5 : FVec F S4x9x256x256 .f32 := broadcastInDim S4x9x256x256 ![] bcast_S_S4x9x256x256 main_cst_0
  let main_v6 : IVec S4x9x256x256 1 := cmpf .olt main_v4 main_v5
  let main_c_1 : IVec S_ 1 := constantI S_ 1 1#1
  let main_v7 : IVec S_ 1 := (fun x v => Host.reduce IntOp.andi x v reducesTo_S4x9x256x256_S_d0_1_2_3 h_S_) main_v6 main_c_1
  let main_v8 : IVec S_ 1 := andi main_v3 main_v7
  main_v8
-- ==== Kernel.lean ====
abbrev S4x64x256x256 : Shape := ⟨4, ![4, 64, 256, 256]⟩
abbrev S4x9x256x256 : Shape := ⟨4, ![4, 9, 256, 256]⟩
abbrev S_ : Shape := ⟨0, ![]⟩
abbrev S4x64x1x256 : Shape := ⟨4, ![4, 64, 1, 256]⟩
abbrev S4x64x257x256 : Shape := ⟨4, ![4, 64, 257, 256]⟩
abbrev S4x64x258x256 : Shape := ⟨4, ![4, 64, 258, 256]⟩
abbrev S4x64x258x1 : Shape := ⟨4, ![4, 64, 258, 1]⟩
abbrev S4x64x258x257 : Shape := ⟨4, ![4, 64, 258, 257]⟩
abbrev S4x64x258x258 : Shape := ⟨4, ![4, 64, 258, 258]⟩
abbrev S1x16x258x258 : Shape := ⟨4, ![1, 16, 258, 258]⟩
abbrev S1x9x256x256 : Shape := ⟨4, ![1, 9, 256, 256]⟩
abbrev S1x16x256x256 : Shape := ⟨4, ![1, 16, 256, 256]⟩
abbrev S9x256x256 : Shape := ⟨3, ![9, 256, 256]⟩
abbrev S256x256 : Shape := ⟨2, ![256, 256]⟩
abbrev S1x256x256 : Shape := ⟨3, ![1, 256, 256]⟩
abbrev S16x256x256 : Shape := ⟨3, ![16, 256, 256]⟩

abbrev nBuf : Space → Nat
  | .hbm => 20
  | .vmem => 6
  | .smem => 0
  | _ => 0

abbrev bufTy : (tb : Table) → Fin (tcTables nBuf tb) → BufTy
  | .hbm, ⟨0, _⟩ => ⟨S4x64x256x256, .f32⟩
  | .hbm, ⟨1, _⟩ => ⟨S4x9x256x256, .f32⟩
  | .hbm, ⟨2, _⟩ => ⟨S_, .i32⟩
  | .hbm, ⟨3, _⟩ => ⟨S4x64x1x256, .f32⟩
  | .hbm, ⟨4, _⟩ => ⟨S4x64x1x256, .f32⟩
  | .hbm, ⟨5, _⟩ => ⟨S4x64x1x256, .f32⟩
  | .hbm, ⟨6, _⟩ => ⟨S4x64x257x256, .f32⟩
  | .hbm, ⟨7, _⟩ => ⟨S4x64x1x256, .f32⟩
  | .hbm, ⟨8, _⟩ => ⟨S4x64x1x256, .f32⟩
  | .hbm, ⟨9, _⟩ => ⟨S4x64x1x256, .f32⟩
  | .hbm, ⟨10, _⟩ => ⟨S4x64x258x256, .f32⟩
  | .hbm, ⟨11, _⟩ => ⟨S4x64x258x1, .f32⟩
  | .hbm, ⟨12, _⟩ => ⟨S4x64x258x1, .f32⟩
  | .hbm, ⟨13, _⟩ => ⟨S4x64x258x1, .f32⟩
  | .hbm, ⟨14, _⟩ => ⟨S4x64x258x257, .f32⟩
  | .hbm, ⟨15, _⟩ => ⟨S4x64x258x1, .f32⟩
  | .hbm, ⟨16, _⟩ => ⟨S4x64x258x1, .f32⟩
  | .hbm, ⟨17, _⟩ => ⟨S4x64x258x1, .f32⟩
  | .hbm, ⟨18, _⟩ => ⟨S4x64x258x258, .f32⟩
  | .hbm, ⟨19, _⟩ => ⟨S4x64x256x256, .f32⟩
  | .local _ .vmem, ⟨0, _⟩ => ⟨S1x16x258x258, .f32⟩
  | .local _ .vmem, ⟨1, _⟩ => ⟨S1x16x258x258, .f32⟩
  | .local _ .vmem, ⟨2, _⟩ => ⟨S1x9x256x256, .f32⟩
  | .local _ .vmem, ⟨3, _⟩ => ⟨S1x9x256x256, .f32⟩
  | .local _ .vmem, ⟨4, _⟩ => ⟨S1x16x256x256, .f32⟩
  | .local _ .vmem, ⟨5, _⟩ => ⟨S1x16x256x256, .f32⟩
  | _, _ => ⟨S4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S4x64x256x256_S4x64x1x256_0_0_0_0 : S4x64x256x256.Slices ![0, 0, 0, 0] S4x64x1x256
  slices_S4x64x256x256_S4x64x1x256_0_0_1_0 : S4x64x256x256.Slices ![0, 0, 1, 0] S4x64x1x256
  concatenates_S4x64x1x256_S4x64x256x256_S4x64x257x256_d2 : Shape.Concatenates [S4x64x1x256, S4x64x256x256] S4x64x257x256 2
  slices_S4x64x257x256_S4x64x1x256_0_0_256_0 : S4x64x257x256.Slices ![0, 0, 256, 0] S4x64x1x256
  slices_S4x64x257x256_S4x64x1x256_0_0_255_0 : S4x64x257x256.Slices ![0, 0, 255, 0] S4x64x1x256
  concatenates_S4x64x257x256_S4x64x1x256_S4x64x258x256_d2 : Shape.Concatenates [S4x64x257x256, S4x64x1x256] S4x64x258x256 2
  slices_S4x64x258x256_S4x64x258x1_0_0_0_0 : S4x64x258x256.Slices ![0, 0, 0, 0] S4x64x258x1
  slices_S4x64x258x256_S4x64x258x1_0_0_0_1 : S4x64x258x256.Slices ![0, 0, 0, 1] S4x64x258x1
  concatenates_S4x64x258x1_S4x64x258x256_S4x64x258x257_d3 : Shape.Concatenates [S4x64x258x1, S4x64x258x256] S4x64x258x257 3
  slices_S4x64x258x257_S4x64x258x1_0_0_0_256 : S4x64x258x257.Slices ![0, 0, 0, 256] S4x64x258x1
  slices_S4x64x258x257_S4x64x258x1_0_0_0_255 : S4x64x258x257.Slices ![0, 0, 0, 255] S4x64x258x1
  concatenates_S4x64x258x257_S4x64x258x1_S4x64x258x258_d3 : Shape.Concatenates [S4x64x258x257, S4x64x258x1] S4x64x258x258 3
  inb_S1x9x256x256_S1x9x256x256_0_0_0_0 : ∀ a, (![0, 0, 0, 0] : Fin 4 → Nat) a + S1x9x256x256.size a ≤ S1x9x256x256.size a
  h_S1x9x256x256 : 0 < S1x9x256x256.numel
  shapeCasts_S1x9x256x256_S9x256x256 : S1x9x256x256.ShapeCasts S9x256x256
  reduces_S9x256x256_S256x256 : S9x256x256.Reduces [0] S256x256
  shapeCasts_S256x256_S1x256x256 : S256x256.ShapeCasts S1x256x256
  broadcasts_S1x256x256_S9x256x256 : S1x256x256.Broadcasts S9x256x256
  inb_S1x16x258x258_S1x16x256x256_0_0_0_0 : ∀ a, (![0, 0, 0, 0] : Fin 4 → Nat) a + S1x16x256x256.size a ≤ S1x16x258x258.size a
  h_S1x16x256x256 : 0 < S1x16x256x256.numel
  shapeCasts_S1x16x256x256_S16x256x256 : S1x16x256x256.ShapeCasts S16x256x256
  slices_S9x256x256_o0_0_0_S1x256x256 : S9x256x256.Slices ![0, 0, 0] S1x256x256
  shapeCasts_S1x256x256_S256x256 : S1x256x256.ShapeCasts S256x256
  broadcasts_S1x256x256_S16x256x256 : S1x256x256.Broadcasts S16x256x256
  inb_S1x16x258x258_S1x16x256x256_0_0_0_1 : ∀ a, (![0, 0, 0, 1] : Fin 4 → Nat) a + S1x16x256x256.size a ≤ S1x16x258x258.size a
  slices_S9x256x256_o1_0_0_S1x256x256 : S9x256x256.Slices ![1, 0, 0] S1x256x256
  inb_S1x16x258x258_S1x16x256x256_0_0_0_2 : ∀ a, (![0, 0, 0, 2] : Fin 4 → Nat) a + S1x16x256x256.size a ≤ S1x16x258x258.size a
  slices_S9x256x256_o2_0_0_S1x256x256 : S9x256x256.Slices ![2, 0, 0] S1x256x256
  inb_S1x16x258x258_S1x16x256x256_0_0_1_0 : ∀ a, (![0, 0, 1, 0] : Fin 4 → Nat) a + S1x16x256x256.size a ≤ S1x16x258x258.size a
  slices_S9x256x256_o3_0_0_S1x256x256 : S9x256x256.Slices ![3, 0, 0] S1x256x256
  inb_S1x16x258x258_S1x16x256x256_0_0_1_1 : ∀ a, (![0, 0, 1, 1] : Fin 4 → Nat) a + S1x16x256x256.size a ≤ S1x16x258x258.size a
  slices_S9x256x256_o4_0_0_S1x256x256 : S9x256x256.Slices ![4, 0, 0] S1x256x256
  inb_S1x16x258x258_S1x16x256x256_0_0_1_2 : ∀ a, (![0, 0, 1, 2] : Fin 4 → Nat) a + S1x16x256x256.size a ≤ S1x16x258x258.size a
  slices_S9x256x256_o5_0_0_S1x256x256 : S9x256x256.Slices ![5, 0, 0] S1x256x256
  inb_S1x16x258x258_S1x16x256x256_0_0_2_0 : ∀ a, (![0, 0, 2, 0] : Fin 4 → Nat) a + S1x16x256x256.size a ≤ S1x16x258x258.size a
  slices_S9x256x256_o6_0_0_S1x256x256 : S9x256x256.Slices ![6, 0, 0] S1x256x256
  inb_S1x16x258x258_S1x16x256x256_0_0_2_1 : ∀ a, (![0, 0, 2, 1] : Fin 4 → Nat) a + S1x16x256x256.size a ≤ S1x16x258x258.size a
  slices_S9x256x256_o7_0_0_S1x256x256 : S9x256x256.Slices ![7, 0, 0] S1x256x256
  inb_S1x16x258x258_S1x16x256x256_0_0_2_2 : ∀ a, (![0, 0, 2, 2] : Fin 4 → Nat) a + S1x16x256x256.size a ≤ S1x16x258x258.size a
  slices_S9x256x256_o8_0_0_S1x256x256 : S9x256x256.Slices ![8, 0, 0] S1x256x256
  inb_S1x16x256x256_S1x16x256x256_0_0_0_0 : ∀ a, (![0, 0, 0, 0] : Fin 4 → Nat) a + S1x16x256x256.size a ≤ S1x16x256x256.size a
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x258x258.size a ≤ S4x64x258x258.size a
  hwx0_0 : ∀ i : grid0.Coords, EltTy.bits .f32 = 32 ∨ (Rect.block (s := S4x64x258x258) S1x16x258x258.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x256x256.size a ≤ S4x9x256x256.size a
  hwx0_1 : ∀ i : grid0.Coords, EltTy.bits .f32 = 32 ∨ (Rect.block (s := S4x9x256x256) S1x9x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S4x64x256x256.size a
  hwx0_2 : ∀ i : grid0.Coords, EltTy.bits .f32 = 32 ∨ (Rect.block (s := S4x64x256x256) S1x16x256x256.size (cc0_transform_2 i) (hinb0_2 i)).WholeWords (EltTy.packing .f32)

variable [Facts₀]

abbrev win0_0 : Pipeline.Window sig grid0 :=
  Pipeline.Window.ofSpec (Memref.whole main_v0) S1x16x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x9x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x256x256 : Shape := ⟨4, ![4, 64, 256, 256]⟩
abbrev S4x9x256x256 : Shape := ⟨4, ![4, 9, 256, 256]⟩
abbrev S_ : Shape := ⟨0, ![]⟩
abbrev S4x64x1x256 : Shape := ⟨4, ![4, 64, 1, 256]⟩
abbrev S4x64x257x256 : Shape := ⟨4, ![4, 64, 257, 256]⟩
abbrev S4x64x258x256 : Shape := ⟨4, ![4, 64, 258, 256]⟩
abbrev S4x64x258x1 : Shape := ⟨4, ![4, 64, 258, 1]⟩
abbrev S4x64x258x257 : Shape := ⟨4, ![4, 64, 258, 257]⟩
abbrev S4x64x258x258 : Shape := ⟨4, ![4, 64, 258, 258]⟩
abbrev S4x256x256 : Shape := ⟨3, ![4, 256, 256]⟩
abbrev S4x1x256x256 : Shape := ⟨4, ![4, 1, 256, 256]⟩

abbrev nBuf : Space → Nat
  | .hbm => 98
  | .vmem => 0
  | .smem => 0
  | _ => 0

abbrev bufTy : (tb : Table) → Fin (tcTables nBuf tb) → BufTy
  | .hbm, ⟨0, _⟩ => ⟨S4x64x256x256, .f32⟩
  | .hbm, ⟨1, _⟩ => ⟨S4x9x256x256, .f32⟩
  | .hbm, ⟨2, _⟩ => ⟨S_, .i32⟩
  | .hbm, ⟨3, _⟩ => ⟨S4x64x1x256, .f32⟩
  | .hbm, ⟨4, _⟩ => ⟨S4x64x1x256, .f32⟩
  | .hbm, ⟨5, _⟩ => ⟨S4x64x1x256, .f32⟩
  | .hbm, ⟨6, _⟩ => ⟨S4x64x257x256, .f32⟩
  | .hbm, ⟨7, _⟩ => ⟨S4x64x1x256, .f32⟩
  | .hbm, ⟨8, _⟩ => ⟨S4x64x1x256, .f32⟩
  | .hbm, ⟨9, _⟩ => ⟨S4x64x1x256, .f32⟩
  | .hbm, ⟨10, _⟩ => ⟨S4x64x258x256, .f32⟩
  | .hbm, ⟨11, _⟩ => ⟨S4x64x258x1, .f32⟩
  | .hbm, ⟨12, _⟩ => ⟨S4x64x258x1, .f32⟩
  | .hbm, ⟨13, _⟩ => ⟨S4x64x258x1, .f32⟩
  | .hbm, ⟨14, _⟩ => ⟨S4x64x258x257, .f32⟩
  | .hbm, ⟨15, _⟩ => ⟨S4x64x258x1, .f32⟩
  | .hbm, ⟨16, _⟩ => ⟨S4x64x258x1, .f32⟩
  | .hbm, ⟨17, _⟩ => ⟨S4x64x258x1, .f32⟩
  | .hbm, ⟨18, _⟩ => ⟨S4x64x258x258, .f32⟩
  | .hbm, ⟨19, _⟩ => ⟨S_, .f32⟩
  | .hbm, ⟨20, _⟩ => ⟨S4x256x256, .f32⟩
  | .hbm, ⟨21, _⟩ => ⟨S_, .f32⟩
  | .hbm, ⟨22, _⟩ => ⟨S4x256x256, .f32⟩
  | .hbm, ⟨23, _⟩ => ⟨S4x256x256, .f32⟩
  | .hbm, ⟨24, _⟩ => ⟨S4x1x256x256, .f32⟩
  | .hbm, ⟨25, _⟩ => ⟨S4x9x256x256, .f32⟩
  | .hbm, ⟨26, _⟩ => ⟨S4x9x256x256, .f32⟩
  | .hbm, ⟨27, _⟩ => ⟨S4x9x256x256, .f32⟩
  | .hbm, ⟨28, _⟩ => ⟨S_, .f32⟩
  | .hbm, ⟨29, _⟩ => ⟨S4x256x256, .f32⟩
  | .hbm, ⟨30, _⟩ => ⟨S4x1x256x256, .f32⟩
  | .hbm, ⟨31, _⟩ => ⟨S4x9x256x256, .f32⟩
  | .hbm, ⟨32, _⟩ => ⟨S4x9x256x256, .f32⟩
  | .hbm, ⟨33, _⟩ => ⟨S_, .f32⟩
  | .hbm, ⟨34, _⟩ => ⟨S4x64x256x256, .f32⟩
  | .hbm, ⟨35, _⟩ => ⟨S4x64x256x256, .f32⟩
  | .hbm, ⟨36, _⟩ => ⟨S4x1x256x256, .f32⟩
  | .hbm, ⟨37, _⟩ => ⟨S4x256x256, .f32⟩
  | .hbm, ⟨38, _⟩ => ⟨S4x1x256x256, .f32⟩
  | .hbm, ⟨39, _⟩ => ⟨S4x64x256x256, .f32⟩
  | .hbm, ⟨40, _⟩ => ⟨S4x64x256x256, .f32⟩
  | .hbm, ⟨41, _⟩ => ⟨S4x64x256x256, .f32⟩
  | .hbm, ⟨42, _⟩ => ⟨S4x64x256x256, .f32⟩
  | .hbm, ⟨43, _⟩ => ⟨S4x1x256x256, .f32⟩
  | .hbm, ⟨44, _⟩ => ⟨S4x256x256, .f32⟩
  | .hbm, ⟨45, _⟩ => ⟨S4x1x256x256, .f32⟩
  | .hbm, ⟨46, _⟩ => ⟨S4x64x256x256, .f32⟩
  | .hbm, ⟨47, _⟩ => ⟨S4x64x256x256, .f32⟩
  | .hbm, ⟨48, _⟩ => ⟨S4x64x256x256, .f32⟩
  | .hbm, ⟨49, _⟩ => ⟨S4x64x256x256, .f32⟩
  | .hbm, ⟨50, _⟩ => ⟨S4x1x256x256, .f32⟩
  | .hbm, ⟨51, _⟩ => ⟨S4x256x256, .f32⟩
  | .hbm, ⟨52, _⟩ => ⟨S4x1x256x256, .f32⟩
  | .hbm, ⟨53, _⟩ => ⟨S4x64x256x256, .f32⟩
  | .hbm, ⟨54, _⟩ => ⟨S4x64x256x256, .f32⟩
  | .hbm, ⟨55, _⟩ => ⟨S4x64x256x256, .f32⟩
  | .hbm, ⟨56, _⟩ => ⟨S4x64x256x256, .f32⟩
  | .hbm, ⟨57, _⟩ => ⟨S4x1x256x256, .f32⟩
  | .hbm, ⟨58, _⟩ => ⟨S4x256x256, .f32⟩
  | .hbm, ⟨59, _⟩ => ⟨S4x1x256x256, .f32⟩
  | .hbm, ⟨60, _⟩ => ⟨S4x64x256x256, .f32⟩
  | .hbm, ⟨61, _⟩ => ⟨S4x64x256x256, .f32⟩
  | .hbm, ⟨62, _⟩ => ⟨S4x64x256x256, .f32⟩
  | .hbm, ⟨63, _⟩ => ⟨S4x64x256x256, .f32⟩
  | .hbm, ⟨64, _⟩ => ⟨S4x1x256x256, .f32⟩
  | .hbm, ⟨65, _⟩ => ⟨S4x256x256, .f32⟩
  | .hbm, ⟨66, _⟩ => ⟨S4x1x256x256, .f32⟩
  | .hbm, ⟨67, _⟩ => ⟨S4x64x256x256, .f32⟩
  | .hbm, ⟨68, _⟩ => ⟨S4x64x256x256, .f32⟩
  | .hbm, ⟨69, _⟩ => ⟨S4x64x256x256, .f32⟩
  | .hbm, ⟨70, _⟩ => ⟨S4x64x256x256, .f32⟩
  | .hbm, ⟨71, _⟩ => ⟨S4x1x256x256, .f32⟩
  | .hbm, ⟨72, _⟩ => ⟨S4x256x256, .f32⟩
  | .hbm, ⟨73, _⟩ => ⟨S4x1x256x256, .f32⟩
  | .hbm, ⟨74, _⟩ => ⟨S4x64x256x256, .f32⟩
  | .hbm, ⟨75, _⟩ => ⟨S4x64x256x256, .f32⟩
  | .hbm, ⟨76, _⟩ => ⟨S4x64x256x256, .f32⟩
  | .hbm, ⟨77, _⟩ => ⟨S4x64x256x256, .f32⟩
  | .hbm, ⟨78, _⟩ => ⟨S4x1x256x256, .f32⟩
  | .hbm, ⟨79, _⟩ => ⟨S4x256x256, .f32⟩
  | .hbm, ⟨80, _⟩ => ⟨S4x1x256x256, .f32⟩
  | .hbm, ⟨81, _⟩ => ⟨S4x64x256x256, .f32⟩
  | .hbm, ⟨82, _⟩ => ⟨S4x64x256x256, .f32⟩
  | .hbm, ⟨83, _⟩ => ⟨S4x64x256x256, .f32⟩
  | .hbm, ⟨84, _⟩ => ⟨S4x64x256x256, .f32⟩
  | .hbm, ⟨85, _⟩ => ⟨S4x1x256x256, .f32⟩
  | .hbm, ⟨86, _⟩ => ⟨S4x256x256, .f32⟩
  | .hbm, ⟨87, _⟩ => ⟨S4x1x256x256, .f32⟩
  | .hbm, ⟨88, _⟩ => ⟨S4x64x256x256, .f32⟩
  | .hbm, ⟨89, _⟩ => ⟨S4x64x256x256, .f32⟩
  | .hbm, ⟨90, _⟩ => ⟨S4x64x256x256, .f32⟩
  | .hbm, ⟨91, _⟩ => ⟨S4x64x256x256, .f32⟩
  | .hbm, ⟨92, _⟩ => ⟨S4x1x256x256, .f32⟩
  | .hbm, ⟨93, _⟩ => ⟨S4x256x256, .f32⟩
  | .hbm, ⟨94, _⟩ => ⟨S4x1x256x256, .f32⟩
  | .hbm, ⟨95, _⟩ => ⟨S4x64x256x256, .f32⟩
  | .hbm, ⟨96, _⟩ => ⟨S4x64x256x256, .f32⟩
  | .hbm, ⟨97, _⟩ => ⟨S4x64x256x256, .f32⟩
  | _, _ => ⟨S4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]

class Facts₀ : Prop where
  slices_S4x64x256x256_S4x64x1x256_0_0_0_0 : S4x64x256x256.Slices ![0, 0, 0, 0] S4x64x1x256
  slices_S4x64x256x256_S4x64x1x256_0_0_1_0 : S4x64x256x256.Slices ![0, 0, 1, 0] S4x64x1x256
  concatenates_S4x64x1x256_S4x64x256x256_S4x64x257x256_d2 : Shape.Concatenates [S4x64x1x256, S4x64x256x256] S4x64x257x256 2
  slices_S4x64x257x256_S4x64x1x256_0_0_256_0 : S4x64x257x256.Slices ![0, 0, 256, 0] S4x64x1x256
  slices_S4x64x257x256_S4x64x1x256_0_0_255_0 : S4x64x257x256.Slices ![0, 0, 255, 0] S4x64x1x256
  concatenates_S4x64x257x256_S4x64x1x256_S4x64x258x256_d2 : Shape.Concatenates [S4x64x257x256, S4x64x1x256] S4x64x258x256 2
  slices_S4x64x258x256_S4x64x258x1_0_0_0_0 : S4x64x258x256.Slices ![0, 0, 0, 0] S4x64x258x1
  slices_S4x64x258x256_S4x64x258x1_0_0_0_1 : S4x64x258x256.Slices ![0, 0, 0, 1] S4x64x258x1
  concatenates_S4x64x258x1_S4x64x258x256_S4x64x258x257_d3 : Shape.Concatenates [S4x64x258x1, S4x64x258x256] S4x64x258x257 3
  slices_S4x64x258x257_S4x64x258x1_0_0_0_256 : S4x64x258x257.Slices ![0, 0, 0, 256] S4x64x258x1
  slices_S4x64x258x257_S4x64x258x1_0_0_0_255 : S4x64x258x257.Slices ![0, 0, 0, 255] S4x64x258x1
  concatenates_S4x64x258x257_S4x64x258x1_S4x64x258x258_d3 : Shape.Concatenates [S4x64x258x257, S4x64x258x1] S4x64x258x258 3
  reducesTo_S4x9x256x256_S4x256x256_d1 : S4x9x256x256.ReducesTo [1] S4x256x256
  h_S_ : 0 < S_.numel
  bcast_S_S4x256x256 : S_.BroadcastsInDim S4x256x256 (![] : Fin 0 → Fin S4x256x256.rank)
  bcast_S4x256x256_S4x1x256x256_0_2_3 : S4x256x256.BroadcastsInDim S4x1x256x256 (![0, 2, 3] : Fin 3 → Fin S4x1x256x256.rank)
  bcast_S4x1x256x256_S4x9x256x256_0_1_2_3 : S4x1x256x256.BroadcastsInDim S4x9x256x256 (![0, 1, 2, 3] : Fin 4 → Fin S4x9x256x256.rank)
  bcast_S_S4x64x256x256 : S_.BroadcastsInDim S4x64x256x256 (![] : Fin 0 → Fin S4x64x256x256.rank)
  slices_S4x64x258x258_S4x64x256x256_0_0_0_0 : S4x64x258x258.Slices ![0, 0, 0, 0] S4x64x256x256
  slices_S4x9x256x256_S4x1x256x256_0_0_0_0 : S4x9x256x256.Slices ![0, 0, 0, 0] S4x1x256x256
  shapeCasts_S4x1x256x256_S4x256x256 : S4x1x256x256.ShapeCasts S4x256x256
  bcast_S4x1x256x256_S4x64x256x256_0_1_2_3 : S4x1x256x256.BroadcastsInDim S4x64x256x256 (![0, 1, 2, 3] : Fin 4 → Fin S4x64x256x256.rank)
  slices_S4x64x258x258_S4x64x256x256_0_0_0_1 : S4x64x258x258.Slices ![0, 0, 0, 1] S4x64x256x256
  slices_S4x9x256x256_S4x1x256x256_0_1_0_0 : S4x9x256x256.Slices ![0, 1, 0, 0] S4x1x256x256
  slices_S4x64x258x258_S4x64x256x256_0_0_0_2 : S4x64x258x258.Slices ![0, 0, 0, 2] S4x64x256x256
  slices_S4x9x256x256_S4x1x256x256_0_2_0_0 : S4x9x256x256.Slices ![0, 2, 0, 0] S4x1x256x256
  slices_S4x64x258x258_S4x64x256x256_0_0_1_0 : S4x64x258x258.Slices ![0, 0, 1, 0] S4x64x256x256
  slices_S4x9x256x256_S4x1x256x256_0_3_0_0 : S4x9x256x256.Slices ![0, 3, 0, 0] S4x1x256x256
  slices_S4x64x258x258_S4x64x256x256_0_0_1_1 : S4x64x258x258.Slices ![0, 0, 1, 1] S4x64x256x256
  slices_S4x9x256x256_S4x1x256x256_0_4_0_0 : S4x9x256x256.Slices ![0, 4, 0, 0] S4x1x256x256
  slices_S4x64x258x258_S4x64x256x256_0_0_1_2 : S4x64x258x258.Slices ![0, 0, 1, 2] S4x64x256x256
  slices_S4x9x256x256_S4x1x256x256_0_5_0_0 : S4x9x256x256.Slices ![0, 5, 0, 0] S4x1x256x256
  slices_S4x64x258x258_S4x64x256x256_0_0_2_0 : S4x64x258x258.Slices ![0, 0, 2, 0] S4x64x256x256
  slices_S4x9x256x256_S4x1x256x256_0_6_0_0 : S4x9x256x256.Slices ![0, 6, 0, 0] S4x1x256x256
  slices_S4x64x258x258_S4x64x256x256_0_0_2_1 : S4x64x258x258.Slices ![0, 0, 2, 1] S4x64x256x256
  slices_S4x9x256x256_S4x1x256x256_0_7_0_0 : S4x9x256x256.Slices ![0, 7, 0, 0] S4x1x256x256
  slices_S4x64x258x258_S4x64x256x256_0_0_2_2 : S4x64x258x258.Slices ![0, 0, 2, 2] S4x64x256x256
  slices_S4x9x256x256_S4x1x256x256_0_8_0_0 : S4x9x256x256.Slices ![0, 8, 0, 0] S4x1x256x256

variable [Facts₀]

class Facts : Prop extends Facts₀ where

variable [Facts]
-- ==== Proof.Spec.lean ====
/-
  The function both programs compute, index by index, on the extended reals.

  A 3×3 convolution whose nine weights vary from pixel to pixel.  `P` is the input image of every batch entry and
  channel with one reflected pixel added on each side (258 × 258), `K` the nine logits of every pixel.  At a pixel
  the logits are turned into weights by a softmax over the nine taps — subtract their maximum, exponentiate, divide by
  the sum of the nine exponentials — and the output is the sum over the taps (dy, dx), in row-major order, of the padded
  pixel at (h + dy, w + dx) times the weight of tap 3·dy + dx, added one after the other onto zero.

  Nothing is evaluated: the maximum starts from the word of −∞ and the sums from the word of 0, both left as words.
  The numbers of batch entries and of channels are parameters, so that the same formula reads a block of the arrays
  (one batch entry, sixteen channels) and the arrays themselves (four and sixty-four).
-/
import Idealize.ShloMosaic.PureOps.Ideal
import Idealize.ShloMosaic.Lib.ValueIdx

noncomputable section

namespace Cert.DynConv

open Idealize.ShloMosaic Idealize.ShloMosaic.ValueIdx

/-- The padded image, the logits and the output, for `B` batch entries and `C` channels. -/
abbrev SP (B C : Nat) : Shape := ⟨4, ![B, C, 258, 258]⟩
abbrev SK (B : Nat) : Shape := ⟨4, ![B, 9, 256, 256]⟩
abbrev SO (B C : Nat) : Shape := ⟨4, ![B, C, 256, 256]⟩

/-- The word of −∞ the maximum starts from, and the word of 0 the sums start from. -/
abbrev negInf : EReal := Ideal.ofBits .f32 0xFF800000#32
abbrev zero : EReal := Ideal.ofBits .f32 0x00000000#32

/-- A pixel coordinate moved `d` ≤ 2 places into the padded image. -/
abbrev sh (d : Nat) (n : Fin 256) (hd : d ≤ 2) : Fin 258 := ⟨d + n.val, by have := n.isLt; omega⟩

variable {B C : Nat}

/-- The largest of a pixel's nine logits (and of −∞). -/
def colMax (K : (SK B).Idx → EReal) (b : Fin B) (h w : Fin 256) : EReal :=
  max negInf ((Finset.univ : Finset (Fin 9)).fold max negInf fun t => K (ix4 b t h w))

/-- A tap's exponential, the maximum subtracted. -/
def expo (K : (SK B).Idx → EReal) (b : Fin B) (t : Fin 9) (h w : Fin 256) : EReal :=
  Ideal.exp (K (ix4 b t h w) - colMax K b h w)

/-- The sum of a pixel's nine exponentials. -/
def expSum (K : (SK B).Idx → EReal) (b : Fin B) (h w : Fin 256) : EReal := ∑ t : Fin 9, expo K b t h w

/-- A tap's weight: the softmax over the nine taps. -/
def wgt (K : (SK B).Idx → EReal) (b : Fin B) (t : Fin 9) (h w : Fin 256) : EReal :=
  Ideal.div (expo K b t h w) (expSum K b h w)

/-- One tap's term: the padded pixel (dy, dx) away times the tap's weight. -/
def tap (P : (SP B C).Idx → EReal) (K : (SK B).Idx → EReal) (b : Fin B) (c : Fin C) (h w : Fin 256)
    (t : Fin 9) (dy dx : Nat) (hdy : dy ≤ 2) (hdx : dx ≤ 2) : EReal :=
  P (ix4 b c (sh dy h hdy) (sh dx w hdx)) * wgt K b t h w

/-- The output at (b, c, h, w): the nine terms added in order onto zero. -/
def out (P : (SP B C).Idx → EReal) (K : (SK B).Idx → EReal) (b : Fin B) (c : Fin C) (h w : Fin 256) : EReal :=
  zero + tap P K b c h w 0 0 0 (by omega) (by omega) + tap P K b c h w 1 0 1 (by omega) (by omega)
    + tap P K b c h w 2 0 2 (by omega) (by omega) + tap P K b c h w 3 1 0 (by omega) (by omega)
    + tap P K b c h w 4 1 1 (by omega) (by omega) + tap P K b c h w 5 1 2 (by omega) (by omega)
    + tap P K b c h w 6 2 0 (by omega) (by omega) + tap P K b c h w 7 2 1 (by omega) (by omega)
    + tap P K b c h w 8 2 2 (by omega) (by omega)

/-- The whole output array. -/
def G (P : (SP B C).Idx → EReal) (K : (SK B).Idx → EReal) : (SO B C).Idx → EReal :=
  fun i => out P K (i 0) (i 1) (i 2) (i 3)

theorem G_apply (P : (SP B C).Idx → EReal) (K : (SK B).Idx → EReal) (b : Fin B) (c : Fin C) (h w : Fin 256) :
    G P K (ix4 b c h w) = out P K b c h w := rfl

/-! The output at a pixel looks at the padded image only in that pixel's batch entry and channel, and at the logits
only in that batch entry and at that pixel: two pairs of arrays that agree there give the same output. -/

variable {B' C' : Nat}

theorem colMax_congr (K : (SK B).Idx → EReal) (K' : (SK B').Idx → EReal) (b : Fin B) (b' : Fin B') (h w : Fin 256)
    (hK : ∀ t, K (ix4 b t h w) = K' (ix4 b' t h w)) : colMax K b h w = colMax K' b' h w := by
  unfold colMax
  rw [show (fun t => K (ix4 b t h w)) = fun t => K' (ix4 b' t h w) from funext hK]

theorem expo_congr (K : (SK B).Idx → EReal) (K' : (SK B').Idx → EReal) (b : Fin B) (b' : Fin B') (t : Fin 9) (h w : Fin 256)
    (hK : ∀ t, K (ix4 b t h w) = K' (ix4 b' t h w)) : expo K b t h w = expo K' b' t h w := by
  unfold expo
  rw [hK t, colMax_congr K K' b b' h w hK]

theorem wgt_congr (K : (SK B).Idx → EReal) (K' : (SK B').Idx → EReal) (b : Fin B) (b' : Fin B') (t : Fin 9) (h w : Fin 256)
    (hK : ∀ t, K (ix4 b t h w) = K' (ix4 b' t h w)) : wgt K b t h w = wgt K' b' t h w := by
  unfold wgt expSum
  rw [expo_congr K K' b b' t h w hK, show (fun t => expo K b t h w) = fun t => expo K' b' t h w from
    funext fun t => expo_congr K K' b b' t h w hK]

theorem out_congr (P : (SP B C).Idx → EReal) (K : (SK B).Idx → EReal) (P' : (SP B' C').Idx → EReal) (K' : (SK B').Idx → EReal)
    (b : Fin B) (c : Fin C) (b' : Fin B') (c' : Fin C') (h w : Fin 256)
    (hP : ∀ y x, P (ix4 b c y x) = P' (ix4 b' c' y x)) (hK : ∀ t, K (ix4 b t h w) = K' (ix4 b' t h w)) :
    out P K b c h w = out P' K' b' c' h w := by
  unfold out tap
  simp only [hP, wgt_congr K K' b b' _ h w hK]

end Cert.DynConv

end
-- ==== Proof.KernelTap.lean ====
/-
  The kernel's arithmetic at one index of its output block.

  The body holds one batch entry's nine logit planes (`x1`, 1 × 9 × 256 × 256) and sixteen padded channels (`x0`,
  1 × 16 × 258 × 258).  It turns the logits into weights plane by plane — the maximum over the nine planes, the
  exponentials, their sum over the nine planes, the quotient — and adds, onto zero, the nine shifted 256 × 256 windows
  of the padded channels each times one weight plane.  Read at the index (c, h, w) every layout operation (dropping or
  adding a unit axis, taking plane t, repeating a plane over the nine planes or over the sixteen channels) only renames
  the index, a reduction over the planes is a maximum or a sum over the nine taps, and what is left is the formula of
  `Cert.DynConv.out` on the block.
-/
import proofs.«141369_j7799660609550_1_alg».proof.Proof.Gen.KernelIdeal.Skeleton
import proofs.«141369_j7799660609550_1_alg».proof.Proof.Spec
import Idealize.ShloMosaic.PureOps.Ideal.Laws
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.DynConv

/-! ## Layout operations and reductions over the planes, read at an index -/

/-- The maximum over the `n` planes, at a pixel: the fold of `max` from −∞ over the planes' entries there. -/
theorem planesMax_apply (v1 : FVec Ideal S9x256x256 .f32) (hr : S9x256x256.Reduces [0] S256x256) (hφ : FKind.Formats .f32)
    (hacc : (0xFF800000#32 : BitVec 32) = FKind.maximumf.neutral .f32 hφ) (h w : Fin 256) :
    multiReduction .maximumf [0] S256x256 v1 0xFF800000#32 hr hφ hacc (ix2 h w)
      = (Finset.univ : Finset (Fin 9)).fold max negInf fun t => v1 (ix3 t h w) := by
  refine (Ideal.multiReduction_maximumf_single v1 _ hr hφ hacc (ix2 h w)).trans ?_
  show (Finset.univ : Finset (Fin 9)).fold max negInf (fun t => v1 (hr.lift (ix2 h w) t)) = _
  congr 1; funext t; congr 1
  funext a; apply Fin.ext
  match a with
  | ⟨0, _⟩ => rfl
  | ⟨1, _⟩ => rfl
  | ⟨2, _⟩ => rfl

/-- The sum over the nine planes, at a pixel. -/
theorem planesSum_apply (v8 : FVec Ideal S9x256x256 .f32) (hr : S9x256x256.Reduces [0] S256x256) (hφ : FKind.Formats .f32)
    (hacc : (0x00000000#32 : BitVec 32) = FKind.add.neutral .f32 hφ) (h w : Fin 256) :
    multiReduction .add [0] S256x256 v8 0x00000000#32 hr hφ hacc (ix2 h w) = ∑ t : Fin 9, v8 (ix3 t h w) := by
  refine (Ideal.multiReduction_add_single v8 _ hr hφ hacc (ix2 h w)).trans ?_
  show ∑ t : Fin 9, v8 (hr.lift (ix2 h w) t) = _
  refine Finset.sum_congr rfl fun t _ => congrArg v8 ?_
  funext a; apply Fin.ext
  match a with
  | ⟨0, _⟩ => rfl
  | ⟨1, _⟩ => rfl
  | ⟨2, _⟩ => rfl

/-- One plane repeated over `n` planes: at (k, h, w) the plane at (h, w). -/
theorem repeatPlane_apply {n : Nat} (p : (⟨2, ![256, 256]⟩ : Shape).Idx → EReal)
    (hc : (⟨2, ![256, 256]⟩ : Shape).ShapeCasts ⟨3, ![1, 256, 256]⟩)
    (hb : (⟨3, ![1, 256, 256]⟩ : Shape).Broadcasts ⟨3, ![n, 256, 256]⟩) (k : Fin n) (h w : Fin 256) :
    broadcastTo ⟨3, ![n, 256, 256]⟩ (shapeCast ⟨3, ![1, 256, 256]⟩ p hc) hb (ix3 k h w) = p (ix2 h w) := by
  refine (broadcastTo_apply _ hb (ix3 k h w) (ix3 (0 : Fin 1) h w) fun a => ?_).trans (shapeCast_ab_1ab_apply p hc 0 h w)
  match a with
  | ⟨0, _⟩ => show 0 = if (1 : Nat) = 1 then 0 else _; rw [if_pos rfl]
  | ⟨1, _⟩ => show h.val = if (256 : Nat) = 1 then 0 else h.val; rw [if_neg (by decide)]
  | ⟨2, _⟩ => show w.val = if (256 : Nat) = 1 then 0 else w.val; rw [if_neg (by decide)]

/-- A loaded 1 × 16 × 256 × 256 window with its unit axis dropped, times weight plane `t` repeated over the sixteen
    channels: at (c, h, w) the window's entry there times the plane's entry at (h, w). -/
theorem windowTimesPlane_apply (v : FVec Ideal S1x16x256x256 .f32) (sm : FVec Ideal S9x256x256 .f32) (o : Nat) (t : Fin 9)
    (ho : t.val = o) (hc : S1x16x256x256.ShapeCasts S16x256x256) (hs : S9x256x256.Slices ![o, 0, 0] S1x256x256)
    (hc1 : S1x256x256.ShapeCasts S256x256) (hc2 : S256x256.ShapeCasts S1x256x256)
    (hb : S1x256x256.Broadcasts S16x256x256) (c : Fin 16) (h w : Fin 256) :
    mulf (shapeCast S16x256x256 v hc)
        (broadcastTo S16x256x256 (shapeCast S1x256x256 (shapeCast S256x256 (extractStridedSlice S1x256x256 ![o, 0, 0] sm hs) hc1) hc2) hb)
        (ix3 c h w)
      = v (ix4 0 c h w) * sm (ix3 t h w) := by
  rw [mulf_apply, shapeCast_1abc_abc_apply v hc c h w, repeatPlane_apply _ hc2 hb c h w, shapeCast_1ab_ab_apply _ hc1 h w]
  congr 1
  refine extractStridedSlice_apply _ sm hs (ix3 (0 : Fin 1) h w) (ix3 t h w) fun a => ?_
  match a with
  | ⟨0, _⟩ => show t.val = o + 0; omega
  | ⟨1, _⟩ => show h.val = 0 + h.val; omega
  | ⟨2, _⟩ => show w.val = 0 + w.val; omega

/-! ## The weights -/

/-- The exponential of a whole array, read at an index. -/
theorem exp_apply {s : Shape} (a : FVec Ideal s .f32) (i : s.Idx) : exp a i = Ideal.exp (a i) := rfl

/-- The exponential planes: at (t, h, w) the exponential of tap `t`'s logit less the pixel's largest logit. -/
theorem expPlanes_apply (x1 : FVec Ideal S1x9x256x256 .f32) (hc : S1x9x256x256.ShapeCasts S9x256x256)
    (hr : S9x256x256.Reduces [0] S256x256) (hφ : FKind.Formats .f32)
    (hacc : (0xFF800000#32 : BitVec 32) = FKind.maximumf.neutral .f32 hφ)
    (hc2 : S256x256.ShapeCasts S1x256x256) (hb : S1x256x256.Broadcasts S9x256x256) (t : Fin 9) (h w : Fin 256) :
    exp (subf (shapeCast S9x256x256 x1 hc)
        (broadcastTo S9x256x256 (shapeCast S1x256x256
          (maximumf (broadcast S256x256 (FloatOps.ofBits (F := Ideal) .f32 0xFF800000#32))
            (multiReduction .maximumf [0] S256x256 (shapeCast S9x256x256 x1 hc) 0xFF800000#32 hr hφ hacc)) hc2) hb))
        (ix3 t h w)
      = expo (B := 1) x1 0 t h w := by
  rw [exp_apply, subf_apply, repeatPlane_apply _ hc2 hb t h w, shapeCast_1abc_abc_apply x1 hc t h w, maximumf_apply,
    broadcast_apply, planesMax_apply]
  unfold expo colMax
  simp only [shapeCast_1abc_abc_apply x1 hc]
  rfl

/-- The body's weight planes: at (t, h, w) the softmax weight of tap `t` at the pixel (h, w) of the block's one batch
    entry. -/
theorem weights_apply (x1 : FVec Ideal S1x9x256x256 .f32) (t : Fin 9) (h w : Fin 256) :
    k0_pay2 (F := Ideal) x1 (ix3 t h w) = wgt (B := 1) x1 0 t h w := by
  unfold k0_pay2 wgt expSum
  rw [divf_apply]
  refine congrArg₂ Ideal.div (expPlanes_apply x1 _ _ _ _ _ _ t h w) ?_
  refine (repeatPlane_apply _ _ _ t h w).trans ?_
  refine (planesSum_apply _ _ _ _ h w).trans ?_
  exact Finset.sum_congr rfl fun t' _ => expPlanes_apply x1 _ _ _ _ _ _ t' h w

/-! ## The body's result at an index -/

/-- The first three taps added onto zero. -/
theorem firstThree_apply (x1 : FVec Ideal S1x9x256x256 .f32) (v14 v22 v30 : FVec Ideal S1x16x256x256 .f32)
    (c : Fin 16) (h w : Fin 256) :
    k0_pay3 (F := Ideal) x1 v14 v22 v30 (ix3 c h w)
      = zero + v14 (ix4 0 c h w) * wgt (B := 1) x1 0 0 h w + v22 (ix4 0 c h w) * wgt (B := 1) x1 0 1 h w
          + v30 (ix4 0 c h w) * wgt (B := 1) x1 0 2 h w := by
  unfold k0_pay3
  rw [addf_apply, addf_apply, addf_apply, broadcast_apply, windowTimesPlane_apply _ _ 0 0 rfl,
    windowTimesPlane_apply _ _ 1 1 rfl, windowTimesPlane_apply _ _ 2 2 rfl, weights_apply, weights_apply, weights_apply]
  rfl

/-- The next five taps added onto what was there. -/
theorem nextFive_apply (sm : FVec Ideal S9x256x256 .f32) (acc : FVec Ideal S16x256x256 .f32)
    (v38 v46 v54 v62 v70 : FVec Ideal S1x16x256x256 .f32) (c : Fin 16) (h w : Fin 256) :
    k0_pay4 (F := Ideal) sm acc v38 v46 v54 v62 v70 (ix3 c h w)
      = acc (ix3 c h w) + v38 (ix4 0 c h w) * sm (ix3 3 h w) + v46 (ix4 0 c h w) * sm (ix3 4 h w)
          + v54 (ix4 0 c h w) * sm (ix3 5 h w) + v62 (ix4 0 c h w) * sm (ix3 6 h w) + v70 (ix4 0 c h w) * sm (ix3 7 h w) := by
  unfold k0_pay4
  rw [addf_apply, addf_apply, addf_apply, addf_apply, addf_apply, windowTimesPlane_apply _ _ 3 3 rfl,
    windowTimesPlane_apply _ _ 4 4 rfl, windowTimesPlane_apply _ _ 5 5 rfl, windowTimesPlane_apply _ _ 6 6 rfl,
    windowTimesPlane_apply _ _ 7 7 rfl]

/-- The last tap added, and the unit axis put back. -/
theorem last_apply (sm : FVec Ideal S9x256x256 .f32) (acc : FVec Ideal S16x256x256 .f32)
    (v78 : FVec Ideal S1x16x256x256 .f32) (c : Fin 16) (h w : Fin 256) :
    k0_pay1 (F := Ideal) sm acc v78 (ix4 0 c h w) = acc (ix3 c h w) + v78 (ix4 0 c h w) * sm (ix3 8 h w) := by
  unfold k0_pay1
  rw [shapeCast_abc_1abc_apply _ _ 0 c h w, addf_apply, windowTimesPlane_apply _ _ 8 8 rfl]

/-- What the body stores, at (c, h, w), over its ten loads: the nine windows each times its tap's weight, added in
    order onto zero. -/
theorem stored_apply (x1 : FVec Ideal S1x9x256x256 .f32) (v14 v22 v30 v38 v46 v54 v62 v70 v78 : FVec Ideal S1x16x256x256 .f32)
    (c : Fin 16) (h w : Fin 256) :
    k0_pay1 (F := Ideal) (k0_pay2 x1) (k0_pay4 (k0_pay2 x1) (k0_pay3 x1 v14 v22 v30) v38 v46 v54 v62 v70) v78 (ix4 0 c h w)
      = zero + v14 (ix4 0 c h w) * wgt (B := 1) x1 0 0 h w + v22 (ix4 0 c h w) * wgt (B := 1) x1 0 1 h w
          + v30 (ix4 0 c h w) * wgt (B := 1) x1 0 2 h w + v38 (ix4 0 c h w) * wgt (B := 1) x1 0 3 h w
          + v46 (ix4 0 c h w) * wgt (B := 1) x1 0 4 h w + v54 (ix4 0 c h w) * wgt (B := 1) x1 0 5 h w
          + v62 (ix4 0 c h w) * wgt (B := 1) x1 0 6 h w + v70 (ix4 0 c h w) * wgt (B := 1) x1 0 7 h w
          + v78 (ix4 0 c h w) * wgt (B := 1) x1 0 8 h w := by
  rw [last_apply, nextFive_apply, firstThree_apply, weights_apply, weights_apply, weights_apply, weights_apply,
    weights_apply, weights_apply]

/-- A 256 × 256 window of the sixteen padded channels, taken (dy, dx) from the corner: at (c, h, w) the padded
    channel c at (dy + h, dx + w). -/
theorem window_apply (x0 : Vec Ideal S1x16x258x258 .f32) (dy dx : Nat) (hdy : dy ≤ 2) (hdx : dx ≤ 2)
    (inb : ∀ a, (![0, 0, dy, dx] : Fin 4 → Nat) a + S1x16x256x256.size a ≤ S1x16x258x258.size a)
    (c : Fin 16) (h w : Fin 256) :
    (View.ld (Val := Elt Ideal) x0 (Rect.unit (s := S1x16x258x258) ![0, 0, dy, dx] S1x16x256x256.size inb) : Vec Ideal S1x16x256x256 .f32)
        (ix4 (0 : Fin 1) c h w)
      = x0 (ix4 0 c (sh dy h hdy) (sh dx w hdx)) := by
  show x0 _ = x0 _
  congr 1; funext a; apply Fin.ext
  match a with
  | ⟨0, _⟩ => show 0 + 1 * 0 = 0; rfl
  | ⟨1, _⟩ => show 0 + 1 * c.val = c.val; omega
  | ⟨2, _⟩ => show dy + 1 * h.val = dy + h.val; omega
  | ⟨3, _⟩ => show dx + 1 * w.val = dx + w.val; omega

end Cert.KernelIdeal.Body

end
-- ==== Proof.Pad.lean ====
/-
  The reflection padding both programs apply to the input image before anything else: one pixel added on each side
  of the two image axes, the pixel next to the border mirrored across it.  Row 1 goes above row 0 and row 254 below
  row 255; then, of the rows so extended, column 1 goes left of column 0 and column 254 right of column 255.

  The certificate never looks inside: both programs build this array by the same operations, and all that is used of
  it is that it is one function of the input image.
-/
import Idealize.ShloMosaic.PureOps

noncomputable section

namespace Cert.DynConv

open Idealize.ShloMosaic

/-- The shapes fit: a row (a column) put beside an array gives the array one row (one column) larger. -/
theorem rows257_fit : Shape.Concatenates [⟨4, ![4, 64, 1, 256]⟩, ⟨4, ![4, 64, 256, 256]⟩] ⟨4, ![4, 64, 257, 256]⟩ 2 := by decide
theorem rows258_fit : Shape.Concatenates [⟨4, ![4, 64, 257, 256]⟩, ⟨4, ![4, 64, 1, 256]⟩] ⟨4, ![4, 64, 258, 256]⟩ 2 := by decide
theorem cols257_fit : Shape.Concatenates [⟨4, ![4, 64, 258, 1]⟩, ⟨4, ![4, 64, 258, 256]⟩] ⟨4, ![4, 64, 258, 257]⟩ 3 := by decide
theorem cols258_fit : Shape.Concatenates [⟨4, ![4, 64, 258, 257]⟩, ⟨4, ![4, 64, 258, 1]⟩] ⟨4, ![4, 64, 258, 258]⟩ 3 := by decide

/-- The input image (4 × 64 × 256 × 256) with one reflected pixel on each side of its last two axes
    (4 × 64 × 258 × 258), built as the programs build it. -/
def padOf {α : Type} (x : (⟨4, ![4, 64, 256, 256]⟩ : Shape).Idx → α) : (⟨4, ![4, 64, 258, 258]⟩ : Shape).Idx → α :=
  -- row 1, to go above row 0
  let top : (⟨4, ![4, 64, 1, 256]⟩ : Shape).Idx → α :=
    Host.reverse [2] (extractStridedSlice ⟨4, ![4, 64, 1, 256]⟩ ![0, 0, 1, 0] x (by decide))
  let rows257 : (⟨4, ![4, 64, 257, 256]⟩ : Shape).Idx → α :=
    concatenate ⟨4, ![4, 64, 257, 256]⟩ 2 [⟨⟨4, ![4, 64, 1, 256]⟩, top⟩, ⟨⟨4, ![4, 64, 256, 256]⟩, x⟩] rows257_fit
  -- the old row 254 (now row 255), to go below the old row 255
  let bottom : (⟨4, ![4, 64, 1, 256]⟩ : Shape).Idx → α :=
    Host.reverse [2] (extractStridedSlice ⟨4, ![4, 64, 1, 256]⟩ ![0, 0, 255, 0] rows257 (by decide))
  let rows258 : (⟨4, ![4, 64, 258, 256]⟩ : Shape).Idx → α :=
    concatenate ⟨4, ![4, 64, 258, 256]⟩ 2 [⟨⟨4, ![4, 64, 257, 256]⟩, rows257⟩, ⟨⟨4, ![4, 64, 1, 256]⟩, bottom⟩] rows258_fit
  -- column 1, to go left of column 0
  let left : (⟨4, ![4, 64, 258, 1]⟩ : Shape).Idx → α :=
    Host.reverse [3] (extractStridedSlice ⟨4, ![4, 64, 258, 1]⟩ ![0, 0, 0, 1] rows258 (by decide))
  let cols257 : (⟨4, ![4, 64, 258, 257]⟩ : Shape).Idx → α :=
    concatenate ⟨4, ![4, 64, 258, 257]⟩ 3 [⟨⟨4, ![4, 64, 258, 1]⟩, left⟩, ⟨⟨4, ![4, 64, 258, 256]⟩, rows258⟩] cols257_fit
  -- the old column 254 (now column 255), to go right of the old column 255
  let right : (⟨4, ![4, 64, 258, 1]⟩ : Shape).Idx → α :=
    Host.reverse [3] (extractStridedSlice ⟨4, ![4, 64, 258, 1]⟩ ![0, 0, 0, 255] cols257 (by decide))
  concatenate ⟨4, ![4, 64, 258, 258]⟩ 3 [⟨⟨4, ![4, 64, 258, 257]⟩, cols257⟩, ⟨⟨4, ![4, 64, 258, 1]⟩, right⟩] cols258_fit

end Cert.DynConv

end
-- ==== Proof.KernelPad.lean ====
/-
  The padded image the kernel's region finds.

  Before the region @main runs the padding function on the input image; the region's first window is over the array
  that function returns.  Read back, that array is `Cert.DynConv.padOf` of the input image as launched: the
  function's slices, reversals and concatenations composed in its order.
-/
import proofs.«141369_j7799660609550_1_alg».proof.Proof.Gen.KernelIdeal.Frame
import proofs.«141369_j7799660609550_1_alg».proof.Proof.Pad
import Idealize.ShloMosaic.Lib.StableHlo.Run
import Idealize.ShloMosaic.PureOps.Ideal

noncomputable section

namespace Cert.KernelIdeal.HostPad

open Cert.KernelIdeal Cert.KernelIdeal.Gen Idealize.ShloMosaic Idealize.ShloMosaic.TcCoe Idealize.SL.Sem Cert.DynConv
open Idealize.ShloMosaic.StableHlo

variable (m : (ℓ : Loc nD τ sig) → Buf (Elt Ideal) ℓ)

-- both sides are one and the same composition of slices, reversals and concatenations of the input image
attribute [local irreducible] concatenate Host.reverse extractStridedSlice in
set_option maxHeartbeats 1000000 in
/-- The host operations before the region leave the padded input image in the first window's array. -/
theorem V_main_v0 (c : Dev nD) :
    (V m c main_v0 : S4x64x258x258.Idx → EReal) = padOf (m ((c : Thread nD τ).loc main_arg0) : S4x64x256x256.Idx → EReal) := by
  dsimp only [V]
  simp only [hostOps0, hostOps0_1, List.flatten_cons, List.flatten_nil, List.append_nil, List.cons_append, List.nil_append]
  after_results
  rfl

end Cert.KernelIdeal.HostPad

end
-- ==== Proof.KernelArray.lean ====
/-
  The kernel's result array after its run.

  The region runs the body at the sixteen grid points (batch entry bi, channel tile ci).  At a point the body finds the
  padded image's block (bi, channels 16·ci … 16·ci + 15, all 258 × 258 pixels) and the logits' block (bi, all nine taps,
  all pixels), and what it stores is written back as block (bi, channels 16·ci … 16·ci + 15) of the result.  The body's
  formula on the blocks looks at one batch entry and one channel only, so on the blocks it is the whole-array formula
  at the batch entry bi and the channel 16·ci + c; the sixteen blocks tile the result, so the result array is the
  whole-array formula of the padded image and the logits as the region finds them.  The padded image the region finds
  is what the host operations before it made of the input image: `Cert.DynConv.padOf` of it.
-/
import proofs.«141369_j7799660609550_1_alg».proof.Proof.Gen.KernelIdeal.Frame
import proofs.«141369_j7799660609550_1_alg».proof.Proof.KernelTap
import proofs.«141369_j7799660609550_1_alg».proof.Proof.KernelPad
import Idealize.ShloMosaic.Lib.Pipeline.Value
import Idealize.ShloMosaic.Lib.StableHlo.Run

noncomputable section

namespace Cert.KernelIdeal.Array

open Cert.KernelIdeal Cert.KernelIdeal.Gen Cert.KernelIdeal.Body Idealize.ShloMosaic Idealize.ShloMosaic.TcCoe Idealize.SL.Sem
open Idealize.ShloMosaic.ValueIdx Cert.DynConv Cert.KernelIdeal.HostPad
open Idealize.ShloMosaic.Pipeline (Dat)

variable (m : (ℓ : Loc nD τ sig) → Buf (Elt Ideal) ℓ) (ρ : Dev nD → PrngReg)

theorem zeroOffsets : (![0, 0, 0, 0] : Fin 4 → Nat) = fun _ => 0 := funext fun a => by fin_cases a <;> rfl

/-! ## The body's result block is the formula on the blocks -/

theorem block_apply (x0 : Vec Ideal S1x16x258x258 .f32) (x1 : Vec Ideal S1x9x256x256 .f32) (c : Fin 16) (h w : Fin 256) :
    out0_2 x0 x1 (ix4 0 c h w) = out (B := 1) (C := 16) x0 x1 0 c h w := by
  unfold out0_2
  rw [View.canon_unit_zero zeroOffsets]
  simp only [View.ld_unit_zero (S := S1x9x256x256) zeroOffsets]
  rw [stored_apply, window_apply x0 0 0 (by omega) (by omega), window_apply x0 0 1 (by omega) (by omega),
    window_apply x0 0 2 (by omega) (by omega), window_apply x0 1 0 (by omega) (by omega),
    window_apply x0 1 1 (by omega) (by omega), window_apply x0 1 2 (by omega) (by omega),
    window_apply x0 2 0 (by omega) (by omega), window_apply x0 2 1 (by omega) (by omega),
    window_apply x0 2 2 (by omega) (by omega)]
  rfl

/-- The same at a block index given by its coordinates. -/
theorem block_apply_of (x0 : Vec Ideal S1x16x258x258 .f32) (x1 : Vec Ideal S1x9x256x256 .f32) (y : S1x16x256x256.Idx)
    (c : Fin 16) (h w : Fin 256) (h1 : (y 1).val = c.val) (h2 : (y 2).val = h.val) (h3 : (y 3).val = w.val) :
    out0_2 x0 x1 y = out (B := 1) (C := 16) x0 x1 0 c h w := by
  have hy0 : (y 0).val < 1 := (y 0).isLt
  have e : y = ix4 (0 : Fin 1) c h w := by
    funext a; apply Fin.ext
    match a with
    | ⟨0, _⟩ => show (y 0).val = 0; omega
    | ⟨1, _⟩ => exact h1
    | ⟨2, _⟩ => exact h2
    | ⟨3, _⟩ => exact h3
  rw [e, block_apply]

/-! ## The grid's index maps -/

/-- Decided over the sixteen points: the padded image's window moves with the result's along the batch entries and the
    channel tiles and stays at the corner of the image axes; the logits' window moves with the batch entries only. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (0 : Fin 4) ≤ 3 ∧ win0_2.index t (1 : Fin 4) ≤ 3
    ∧ win0_2.index t (2 : Fin 4) = 0 ∧ win0_2.index t (3 : Fin 4) = 0 :=
  (by decide +kernel : ∀ t : Fin grid0.N, _)

/-- Every (batch entry, channel tile) is some point's. -/
theorem index_onto : ∀ (q0 : Fin 4) (q1 : Fin 4), ∃ t : Fin cfg0.N, win0_2.index t = ![q0.val, q1.val, 0, 0] :=
  (by decide +kernel : ∀ (q0 : Fin 4) (q1 : Fin 4), ∃ t : Fin grid0.N, win0_2.index t = ![q0.val, q1.val, 0, 0])

/-! ## What a point writes back -/

/-- Point `t` writes back block `t` of the whole-array formula of the padded image and the logits as the region finds
    them. -/
theorem flushed_eq (c : Dev nD) (t : Fin cfg0.N) :
    (dats m 0 c).flushed 2 t = ((cfg0.win 2).blk t).view.read (Elt Ideal)
      (G (B := 4) (C := 64) (V m c main_v0 : S4x64x258x258.Idx → EReal) (V m c main_arg1 : S4x9x256x256.Idx → EReal)) := by
  show (cfg0.win 2).cut (grid0.coords t) ((dats m 0 c).after 2 t) = _
  rw [after0_2]
  obtain ⟨a0, a1, a2, a3, b0, b1, b2, b3, o0, o1, o2, o3⟩ := index_facts t
  funext j
  have hj0 : (j 0).val < 1 := (j 0).isLt
  have hj1 : (j 1).val < 16 := (j 1).isLt
  have hj2 : (j 2).val < 256 := (j 2).isLt
  have hj3 : (j 3).val < 256 := (j 3).isLt
  show out0_2 (iblk m c 0 t) (iblk m c 1 t) j
    = G (B := 4) (C := 64) (V m c main_v0 : S4x64x258x258.Idx → EReal) (V m c main_arg1 : S4x9x256x256.Idx → EReal)
        (((cfg0.win 2).blk t).view.emb j)
  have e : ((cfg0.win 2).blk t).view.emb j
      = ix4 (⟨win0_2.index t (0 : Fin 4), by omega⟩ : Fin 4) (⟨win0_2.index t (1 : Fin 4) * 16 + (j 1).val, by omega⟩ : Fin 64)
          (⟨(j 2).val, hj2⟩ : Fin 256) (⟨(j 3).val, hj3⟩ : Fin 256) := by
    funext a; apply Fin.ext
    match a with
    | ⟨0, _⟩ => show win0_2.index t (0 : Fin 4) * 1 + 1 * (j 0).val = win0_2.index t (0 : Fin 4); omega
    | ⟨1, _⟩ => show win0_2.index t (1 : Fin 4) * 16 + 1 * (j 1).val = win0_2.index t (1 : Fin 4) * 16 + (j 1).val; omega
    | ⟨2, _⟩ => show win0_2.index t (2 : Fin 4) * 256 + 1 * (j 2).val = (j 2).val; omega
    | ⟨3, _⟩ => show win0_2.index t (3 : Fin 4) * 256 + 1 * (j 3).val = (j 3).val; omega
  rw [e, G_apply]
  refine (block_apply_of (iblk m c 0 t) (iblk m c 1 t) j ⟨(j 1).val, hj1⟩ ⟨(j 2).val, hj2⟩ ⟨(j 3).val, hj3⟩ rfl rfl rfl).trans ?_
  refine out_congr _ _ _ _ 0 _ _ _ _ _ (fun y x => ?_) (fun k => ?_)
  · show V m c main_v0 (((cfg0.win 0).blk t).view.emb (ix4 (0 : Fin 1) (⟨(j 1).val, hj1⟩ : Fin 16) y x)) = V m c main_v0 _
    refine congrArg (V m c main_v0) ?_
    funext a; apply Fin.ext
    match a with
    | ⟨0, _⟩ => show win0_0.index t (0 : Fin 4) * 1 + 1 * 0 = win0_2.index t (0 : Fin 4); omega
    | ⟨1, _⟩ => show win0_0.index t (1 : Fin 4) * 16 + 1 * (j 1).val = win0_2.index t (1 : Fin 4) * 16 + (j 1).val; omega
    | ⟨2, _⟩ => show win0_0.index t (2 : Fin 4) * 258 + 1 * y.val = y.val; omega
    | ⟨3, _⟩ => show win0_0.index t (3 : Fin 4) * 258 + 1 * x.val = x.val; omega
  · show V m c main_arg1 (((cfg0.win 1).blk t).view.emb (ix4 (0 : Fin 1) k (⟨(j 2).val, hj2⟩ : Fin 256) (⟨(j 3).val, hj3⟩ : Fin 256))) = V m c main_arg1 _
    refine congrArg (V m c main_arg1) ?_
    funext a; apply Fin.ext
    match a with
    | ⟨0, _⟩ => show win0_1.index t (0 : Fin 4) * 1 + 1 * 0 = win0_2.index t (0 : Fin 4); omega
    | ⟨1, _⟩ => show win0_1.index t (1 : Fin 4) * 9 + 1 * k.val = k.val; omega
    | ⟨2, _⟩ => show win0_1.index t (2 : Fin 4) * 256 + 1 * (j 2).val = (j 2).val; omega
    | ⟨3, _⟩ => show win0_1.index t (3 : Fin 4) * 256 + 1 * (j 3).val = (j 3).val; omega

/-! ## The blocks tile the result -/

/-- An index of the result is in point `t`'s block iff each coordinate is in the block's range on its axis. -/
theorem mem_blk (t : Fin cfg0.N) (i : S4x64x256x256.Idx) :
    i ∈ ((cfg0.win 2).blk t).view.set ↔ ∀ a : Fin 4, win0_2.index t a * S1x16x256x256.size a ≤ (i a).val
      ∧ (i a).val < win0_2.index t a * S1x16x256x256.size a + S1x16x256x256.size a := by
  show i ∈ ((View.whole main_v1).slice (win0_2.rect t)).set ↔ _
  rw [View.set_slice_whole, Rect.mem_set_unit]
  exact Iff.rfl

/-- Every index of the result is in the block of the point of its batch entry and its channel's tile. -/
theorem covered (i : S4x64x256x256.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 256 := (i 2).isLt
  have hi3 : (i 3).val < 256 := (i 3).isLt
  obtain ⟨t, ht⟩ := index_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- So the result array ends holding the whole-array formula. -/
theorem final (c : Dev nD) : (dats m 0 c).arrAt 2 cfg0.N
    = G (B := 4) (C := 64) (V m c main_v0 : S4x64x258x258.Idx → EReal) (V m c main_arg1 : S4x9x256x256.Idx → EReal) :=
  (dats m 0 c).arrAt_eq_of_cover 2 _ (fun t _ => flushed_eq m c t) covered

/-! ## The run, read -/

/-- Every weakly fair execution ends with the result at the whole-array formula of the padded input image and the
    logits, and the arguments as launched. -/
theorem run : θ_run defs (onTc (τ := τ) (main (F := Ideal))) ⟨m, fun _ => 0, ρ⟩ fun r => ∀ c : Dev nD,
      r.2.mem ((c : Thread nD τ).loc main_v1)
        = G (B := 4) (C := 64) (padOf (m ((c : Thread nD τ).loc main_arg0) : S4x64x256x256.Idx → EReal))
            (m ((c : Thread nD τ).loc main_arg1) : S4x9x256x256.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans ((final m c).trans (by rw [V_main_v0 m c, V_main_arg1 m c])),
        ((h c).2 main_arg0 (Pipeline.mem_restRefs_of main_arg0 (by decide) (by decide))).trans (V_main_arg0 m c),
        ((h c).1 1).trans (((dats m 0 c).arrAt_in 1 rfl _).trans ((A_eq m c 1).trans (V_main_arg1 m c)))⟩)
    (run_main m ρ)

end Cert.KernelIdeal.Array

end
-- ==== Proof.RefRun.lean ====
/-
  The reference program's run.

  The reference has no kernel: its @main is a straight line of ninety-six host operations.  They are listed here in
  four stretches — the reflection padding of the input image (a constant the padding function is handed and never
  reads, then its sixteen operations), the softmax of the logits over the nine taps (fourteen), and the nine taps'
  products added one after the other onto zero (forty-four operations up to the sixth tap, twenty-one for the last
  three) — and every weakly fair execution ends with each buffer holding what the operations, folded in order over the
  launch contents, leave in it.
-/
import proofs.«141369_j7799660609550_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reflection padding: one reflected pixel on each side of the image axes. -/
abbrev opsPad : List (HloOp τ sig (Elt F)) :=
  [ nullary main_c (constantI S_ 32 0#32),
    TRef.unary (.of main_arg0 : StableHlo.TRef sig ⟨S4x64x256x256, .f32⟩) (.of main_call0_v0 : StableHlo.TRef sig ⟨S4x64x1x256, .f32⟩) (extractStridedSlice S4x64x1x256 ![0, 0, 0, 0] · slices_S4x64x256x256_S4x64x1x256_0_0_0_0),
    TRef.unary (.of main_arg0 : StableHlo.TRef sig ⟨S4x64x256x256, .f32⟩) (.of main_call0_v1 : StableHlo.TRef sig ⟨S4x64x1x256, .f32⟩) (extractStridedSlice S4x64x1x256 ![0, 0, 1, 0] · slices_S4x64x256x256_S4x64x1x256_0_0_1_0),
    TRef.unary (.of main_call0_v1 : StableHlo.TRef sig ⟨S4x64x1x256, .f32⟩) (.of main_call0_v2 : StableHlo.TRef sig ⟨S4x64x1x256, .f32⟩) (Host.reverse [2]),
    TRef.binary main_call0_call0.v0 (.of main_arg0 : StableHlo.TRef sig ⟨S4x64x256x256, .f32⟩) (.of main_call0_v3 : StableHlo.TRef sig ⟨S4x64x257x256, .f32⟩) (fun a b => concatenate S4x64x257x256 2 [⟨S4x64x1x256, a⟩, ⟨S4x64x256x256, b⟩] concatenates_S4x64x1x256_S4x64x256x256_S4x64x257x256_d2),
    TRef.unary (.of main_call0_v3 : StableHlo.TRef sig ⟨S4x64x257x256, .f32⟩) (.of main_call0_v4 : StableHlo.TRef sig ⟨S4x64x1x256, .f32⟩) (extractStridedSlice S4x64x1x256 ![0, 0, 256, 0] · slices_S4x64x257x256_S4x64x1x256_0_0_256_0),
    TRef.unary (.of main_call0_v3 : StableHlo.TRef sig ⟨S4x64x257x256, .f32⟩) (.of main_call0_v5 : StableHlo.TRef sig ⟨S4x64x1x256, .f32⟩) (extractStridedSlice S4x64x1x256 ![0, 0, 255, 0] · slices_S4x64x257x256_S4x64x1x256_0_0_255_0),
    TRef.unary (.of main_call0_v5 : StableHlo.TRef sig ⟨S4x64x1x256, .f32⟩) (.of main_call0_v6 : StableHlo.TRef sig ⟨S4x64x1x256, .f32⟩) (Host.reverse [2]),
    TRef.binary (.of main_call0_v3 : StableHlo.TRef sig ⟨S4x64x257x256, .f32⟩) main_call0_call1.v0 (.of main_call0_v7 : StableHlo.TRef sig ⟨S4x64x258x256, .f32⟩) (fun a b => concatenate S4x64x258x256 2 [⟨S4x64x257x256, a⟩, ⟨S4x64x1x256, b⟩] concatenates_S4x64x257x256_S4x64x1x256_S4x64x258x256_d2),
    TRef.unary (.of main_call0_v7 : StableHlo.TRef sig ⟨S4x64x258x256, .f32⟩) (.of main_call0_v8 : StableHlo.TRef sig ⟨S4x64x258x1, .f32⟩) (extractStridedSlice S4x64x258x1 ![0, 0, 0, 0] · slices_S4x64x258x256_S4x64x258x1_0_0_0_0),
    TRef.unary (.of main_call0_v7 : StableHlo.TRef sig ⟨S4x64x258x256, .f32⟩) (.of main_call0_v9 : StableHlo.TRef sig ⟨S4x64x258x1, .f32⟩) (extractStridedSlice S4x64x258x1 ![0, 0, 0, 1] · slices_S4x64x258x256_S4x64x258x1_0_0_0_1),
    TRef.unary (.of main_call0_v9 : StableHlo.TRef sig ⟨S4x64x258x1, .f32⟩) (.of main_call0_v10 : StableHlo.TRef sig ⟨S4x64x258x1, .f32⟩) (Host.reverse [3]),
    TRef.binary main_call0_call2.v0 (.of main_call0_v7 : StableHlo.TRef sig ⟨S4x64x258x256, .f32⟩) (.of main_call0_v11 : StableHlo.TRef sig ⟨S4x64x258x257, .f32⟩) (fun a b => concatenate S4x64x258x257 3 [⟨S4x64x258x1, a⟩, ⟨S4x64x258x256, b⟩] concatenates_S4x64x258x1_S4x64x258x256_S4x64x258x257_d3),
    TRef.unary (.of main_call0_v11 : StableHlo.TRef sig ⟨S4x64x258x257, .f32⟩) (.of main_call0_v12 : StableHlo.TRef sig ⟨S4x64x258x1, .f32⟩) (extractStridedSlice S4x64x258x1 ![0, 0, 0, 256] · slices_S4x64x258x257_S4x64x258x1_0_0_0_256),
    TRef.unary (.of main_call0_v11 : StableHlo.TRef sig ⟨S4x64x258x257, .f32⟩) (.of main_call0_v13 : StableHlo.TRef sig ⟨S4x64x258x1, .f32⟩) (extractStridedSlice S4x64x258x1 ![0, 0, 0, 255] · slices_S4x64x258x257_S4x64x258x1_0_0_0_255),
    TRef.unary (.of main_call0_v13 : StableHlo.TRef sig ⟨S4x64x258x1, .f32⟩) (.of main_call0_v14 : StableHlo.TRef sig ⟨S4x64x258x1, .f32⟩) (Host.reverse [3]),
    TRef.binary (.of main_call0_v11 : StableHlo.TRef sig ⟨S4x64x258x257, .f32⟩) main_call0_call3.v0 (.of main_v0 : StableHlo.TRef sig ⟨S4x64x258x258, .f32⟩) (fun a b => concatenate S4x64x258x258 3 [⟨S4x64x258x257, a⟩, ⟨S4x64x258x1, b⟩] concatenates_S4x64x258x257_S4x64x258x1_S4x64x258x258_d3) ]

/-- The softmax of the logits over the nine taps. -/
abbrev opsSoft : List (HloOp τ sig (Elt F)) :=
  [ nullary main_cst (constant S_ .f32 0xFF800000#32),
    binary main_arg1 main_cst main_v1 ((fun x v => Host.reduce FloatOps.maximumf x v reducesTo_S4x9x256x256_S4x256x256_d1 h_S_) : (⟨S4x9x256x256, .f32⟩ : BufTy).Contents (Elt F) → (⟨S_, .f32⟩ : BufTy).Contents (Elt F) → (⟨S4x256x256, .f32⟩ : BufTy).Contents (Elt F)),
    nullary main_cst_0 (constant S_ .f32 0xFF800000#32),
    unary main_cst_0 main_v2 (broadcastInDim S4x256x256 ![] bcast_S_S4x256x256 : (⟨S_, .f32⟩ : BufTy).Contents (Elt F) → (⟨S4x256x256, .f32⟩ : BufTy).Contents (Elt F)),
    binary main_v2 main_v1 main_v3 (maximumf : (⟨S4x256x256, .f32⟩ : BufTy).Contents (Elt F) → (⟨S4x256x256, .f32⟩ : BufTy).Contents (Elt F) → (⟨S4x256x256, .f32⟩ : BufTy).Contents (Elt F)),
    unary main_v3 main_v4 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v4 main_v5 (broadcastInDim S4x9x256x256 ![0, 1, 2, 3] bcast_S4x1x256x256_S4x9x256x256_0_1_2_3 : (⟨S4x1x256x256, .f32⟩ : BufTy).Contents (Elt F) → (⟨S4x9x256x256, .f32⟩ : BufTy).Contents (Elt F)),
    binary main_arg1 main_v5 main_v6 (subf : (⟨S4x9x256x256, .f32⟩ : BufTy).Contents (Elt F) → (⟨S4x9x256x256, .f32⟩ : BufTy).Contents (Elt F) → (⟨S4x9x256x256, .f32⟩ : BufTy).Contents (Elt F)),
    unary main_v6 main_v7 (Host.exp : (⟨S4x9x256x256, .f32⟩ : BufTy).Contents (Elt F) → (⟨S4x9x256x256, .f32⟩ : BufTy).Contents (Elt F)),
    nullary main_cst_1 (constant S_ .f32 0x00000000#32),
    binary main_v7 main_cst_1 main_v8 ((fun x v => Host.reduceAdd x v reducesTo_S4x9x256x256_S4x256x256_d1 h_S_) : (⟨S4x9x256x256, .f32⟩ : BufTy).Contents (Elt F) → (⟨S_, .f32⟩ : BufTy).Contents (Elt F) → (⟨S4x256x256, .f32⟩ : BufTy).Contents (Elt F)),
    unary main_v8 main_v9 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v9 main_v10 (broadcastInDim S4x9x256x256 ![0, 1, 2, 3] bcast_S4x1x256x256_S4x9x256x256_0_1_2_3 : (⟨S4x1x256x256, .f32⟩ : BufTy).Contents (Elt F) → (⟨S4x9x256x256, .f32⟩ : BufTy).Contents (Elt F)),
    binary main_v7 main_v10 main_v11 (Host.divf : (⟨S4x9x256x256, .f32⟩ : BufTy).Contents (Elt F) → (⟨S4x9x256x256, .f32⟩ : BufTy).Contents (Elt F) → (⟨S4x9x256x256, .f32⟩ : BufTy).Contents (Elt F)) ]

/-- Zero, then the first six taps' products added in order. -/
abbrev opsTaps0 : List (HloOp τ sig (Elt F)) :=
  [ nullary main_cst_2 (constant S_ .f32 0x00000000#32),
    unary main_cst_2 main_v12 (broadcastInDim S4x64x256x256 ![] bcast_S_S4x64x256x256 : (⟨S_, .f32⟩ : BufTy).Contents (Elt F) → (⟨S4x64x256x256, .f32⟩ : BufTy).Contents (Elt F)),
    unary main_v0 main_v13 ((extractStridedSlice S4x64x256x256 ![0, 0, 0, 0] · slices_S4x64x258x258_S4x64x256x256_0_0_0_0) : (⟨S4x64x258x258, .f32⟩ : BufTy).Contents (Elt F) → (⟨S4x64x256x256, .f32⟩ : BufTy).Contents (Elt F)),
    unary main_v11 main_v14 ((extractStridedSlice S4x1x256x256 ![0, 0, 0, 0] · slices_S4x9x256x256_S4x1x256x256_0_0_0_0) : (⟨S4x9x256x256, .f32⟩ : BufTy).Contents (Elt F) → (⟨S4x1x256x256, .f32⟩ : BufTy).Contents (Elt F)),
    reshape main_v14 main_v15 rfl shapeCasts_S4x1x256x256_S4x256x256,
    unary main_v15 main_v16 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v16 main_v17 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v17 main_v13 main_v18 (mulf : (⟨S4x64x256x256, .f32⟩ : BufTy).Contents (Elt F) → (⟨S4x64x256x256, .f32⟩ : BufTy).Contents (Elt F) → (⟨S4x64x256x256, .f32⟩ : BufTy).Contents (Elt F)),
    binary main_v12 main_v18 main_v19 (addf : (⟨S4x64x256x256, .f32⟩ : BufTy).Contents (Elt F) → (⟨S4x64x256x256, .f32⟩ : BufTy).Contents (Elt F) → (⟨S4x64x256x256, .f32⟩ : BufTy).Contents (Elt F)),
    unary main_v0 main_v20 ((extractStridedSlice S4x64x256x256 ![0, 0, 0, 1] · slices_S4x64x258x258_S4x64x256x256_0_0_0_1) : (⟨S4x64x258x258, .f32⟩ : BufTy).Contents (Elt F) → (⟨S4x64x256x256, .f32⟩ : BufTy).Contents (Elt F)),
    unary main_v11 main_v21 ((extractStridedSlice S4x1x256x256 ![0, 1, 0, 0] · slices_S4x9x256x256_S4x1x256x256_0_1_0_0) : (⟨S4x9x256x256, .f32⟩ : BufTy).Contents (Elt F) → (⟨S4x1x256x256, .f32⟩ : BufTy).Contents (Elt F)),
    reshape main_v21 main_v22 rfl shapeCasts_S4x1x256x256_S4x256x256,
    unary main_v22 main_v23 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v23 main_v24 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v24 main_v20 main_v25 (mulf : (⟨S4x64x256x256, .f32⟩ : BufTy).Contents (Elt F) → (⟨S4x64x256x256, .f32⟩ : BufTy).Contents (Elt F) → (⟨S4x64x256x256, .f32⟩ : BufTy).Contents (Elt F)),
    binary main_v19 main_v25 main_v26 (addf : (⟨S4x64x256x256, .f32⟩ : BufTy).Contents (Elt F) → (⟨S4x64x256x256, .f32⟩ : BufTy).Contents (Elt F) → (⟨S4x64x256x256, .f32⟩ : BufTy).Contents (Elt F)),
    unary main_v0 main_v27 ((extractStridedSlice S4x64x256x256 ![0, 0, 0, 2] · slices_S4x64x258x258_S4x64x256x256_0_0_0_2) : (⟨S4x64x258x258, .f32⟩ : BufTy).Contents (Elt F) → (⟨S4x64x256x256, .f32⟩ : BufTy).Contents (Elt F)),
    unary main_v11 main_v28 ((extractStridedSlice S4x1x256x256 ![0, 2, 0, 0] · slices_S4x9x256x256_S4x1x256x256_0_2_0_0) : (⟨S4x9x256x256, .f32⟩ : BufTy).Contents (Elt F) → (⟨S4x1x256x256, .f32⟩ : BufTy).Contents (Elt F)),
    reshape main_v28 main_v29 rfl shapeCasts_S4x1x256x256_S4x256x256,
    unary main_v29 main_v30 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v30 main_v31 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v31 main_v27 main_v32 (mulf : (⟨S4x64x256x256, .f32⟩ : BufTy).Contents (Elt F) → (⟨S4x64x256x256, .f32⟩ : BufTy).Contents (Elt F) → (⟨S4x64x256x256, .f32⟩ : BufTy).Contents (Elt F)),
    binary main_v26 main_v32 main_v33 (addf : (⟨S4x64x256x256, .f32⟩ : BufTy).Contents (Elt F) → (⟨S4x64x256x256, .f32⟩ : BufTy).Contents (Elt F) → (⟨S4x64x256x256, .f32⟩ : BufTy).Contents (Elt F)),
    unary main_v0 main_v34 ((extractStridedSlice S4x64x256x256 ![0, 0, 1, 0] · slices_S4x64x258x258_S4x64x256x256_0_0_1_0) : (⟨S4x64x258x258, .f32⟩ : BufTy).Contents (Elt F) → (⟨S4x64x256x256, .f32⟩ : BufTy).Contents (Elt F)),
    unary main_v11 main_v35 ((extractStridedSlice S4x1x256x256 ![0, 3, 0, 0] · slices_S4x9x256x256_S4x1x256x256_0_3_0_0) : (⟨S4x9x256x256, .f32⟩ : BufTy).Contents (Elt F) → (⟨S4x1x256x256, .f32⟩ : BufTy).Contents (Elt F)),
    reshape main_v35 main_v36 rfl shapeCasts_S4x1x256x256_S4x256x256,
    unary main_v36 main_v37 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v37 main_v38 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v38 main_v34 main_v39 (mulf : (⟨S4x64x256x256, .f32⟩ : BufTy).Contents (Elt F) → (⟨S4x64x256x256, .f32⟩ : BufTy).Contents (Elt F) → (⟨S4x64x256x256, .f32⟩ : BufTy).Contents (Elt F)),
    binary main_v33 main_v39 main_v40 (addf : (⟨S4x64x256x256, .f32⟩ : BufTy).Contents (Elt F) → (⟨S4x64x256x256, .f32⟩ : BufTy).Contents (Elt F) → (⟨S4x64x256x256, .f32⟩ : BufTy).Contents (Elt F)),
    unary main_v0 main_v41 ((extractStridedSlice S4x64x256x256 ![0, 0, 1, 1] · slices_S4x64x258x258_S4x64x256x256_0_0_1_1) : (⟨S4x64x258x258, .f32⟩ : BufTy).Contents (Elt F) → (⟨S4x64x256x256, .f32⟩ : BufTy).Contents (Elt F)),
    unary main_v11 main_v42 ((extractStridedSlice S4x1x256x256 ![0, 4, 0, 0] · slices_S4x9x256x256_S4x1x256x256_0_4_0_0) : (⟨S4x9x256x256, .f32⟩ : BufTy).Contents (Elt F) → (⟨S4x1x256x256, .f32⟩ : BufTy).Contents (Elt F)),
    reshape main_v42 main_v43 rfl shapeCasts_S4x1x256x256_S4x256x256,
    unary main_v43 main_v44 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v44 main_v45 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v45 main_v41 main_v46 (mulf : (⟨S4x64x256x256, .f32⟩ : BufTy).Contents (Elt F) → (⟨S4x64x256x256, .f32⟩ : BufTy).Contents (Elt F) → (⟨S4x64x256x256, .f32⟩ : BufTy).Contents (Elt F)),
    binary main_v40 main_v46 main_v47 (addf : (⟨S4x64x256x256, .f32⟩ : BufTy).Contents (Elt F) → (⟨S4x64x256x256, .f32⟩ : BufTy).Contents (Elt F) → (⟨S4x64x256x256, .f32⟩ : BufTy).Contents (Elt F)),
    unary main_v0 main_v48 ((extractStridedSlice S4x64x256x256 ![0, 0, 1, 2] · slices_S4x64x258x258_S4x64x256x256_0_0_1_2) : (⟨S4x64x258x258, .f32⟩ : BufTy).Contents (Elt F) → (⟨S4x64x256x256, .f32⟩ : BufTy).Contents (Elt F)),
    unary main_v11 main_v49 ((extractStridedSlice S4x1x256x256 ![0, 5, 0, 0] · slices_S4x9x256x256_S4x1x256x256_0_5_0_0) : (⟨S4x9x256x256, .f32⟩ : BufTy).Contents (Elt F) → (⟨S4x1x256x256, .f32⟩ : BufTy).Contents (Elt F)),
    reshape main_v49 main_v50 rfl shapeCasts_S4x1x256x256_S4x256x256,
    unary main_v50 main_v51 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v51 main_v52 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v52 main_v48 main_v53 (mulf : (⟨S4x64x256x256, .f32⟩ : BufTy).Contents (Elt F) → (⟨S4x64x256x256, .f32⟩ : BufTy).Contents (Elt F) → (⟨S4x64x256x256, .f32⟩ : BufTy).Contents (Elt F)),
    binary main_v47 main_v53 main_v54 (addf : (⟨S4x64x256x256, .f32⟩ : BufTy).Contents (Elt F) → (⟨S4x64x256x256, .f32⟩ : BufTy).Contents (Elt F) → (⟨S4x64x256x256, .f32⟩ : BufTy).Contents (Elt F)) ]

/-- The last three taps' products added. -/
abbrev opsTaps1 : List (HloOp τ sig (Elt F)) :=
  [ unary main_v0 main_v55 ((extractStridedSlice S4x64x256x256 ![0, 0, 2, 0] · slices_S4x64x258x258_S4x64x256x256_0_0_2_0) : (⟨S4x64x258x258, .f32⟩ : BufTy).Contents (Elt F) → (⟨S4x64x256x256, .f32⟩ : BufTy).Contents (Elt F)),
    unary main_v11 main_v56 ((extractStridedSlice S4x1x256x256 ![0, 6, 0, 0] · slices_S4x9x256x256_S4x1x256x256_0_6_0_0) : (⟨S4x9x256x256, .f32⟩ : BufTy).Contents (Elt F) → (⟨S4x1x256x256, .f32⟩ : BufTy).Contents (Elt F)),
    reshape main_v56 main_v57 rfl shapeCasts_S4x1x256x256_S4x256x256,
    unary main_v57 main_v58 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v58 main_v59 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v59 main_v55 main_v60 (mulf : (⟨S4x64x256x256, .f32⟩ : BufTy).Contents (Elt F) → (⟨S4x64x256x256, .f32⟩ : BufTy).Contents (Elt F) → (⟨S4x64x256x256, .f32⟩ : BufTy).Contents (Elt F)),
    binary main_v54 main_v60 main_v61 (addf : (⟨S4x64x256x256, .f32⟩ : BufTy).Contents (Elt F) → (⟨S4x64x256x256, .f32⟩ : BufTy).Contents (Elt F) → (⟨S4x64x256x256, .f32⟩ : BufTy).Contents (Elt F)),
    unary main_v0 main_v62 ((extractStridedSlice S4x64x256x256 ![0, 0, 2, 1] · slices_S4x64x258x258_S4x64x256x256_0_0_2_1) : (⟨S4x64x258x258, .f32⟩ : BufTy).Contents (Elt F) → (⟨S4x64x256x256, .f32⟩ : BufTy).Contents (Elt F)),
    unary main_v11 main_v63 ((extractStridedSlice S4x1x256x256 ![0, 7, 0, 0] · slices_S4x9x256x256_S4x1x256x256_0_7_0_0) : (⟨S4x9x256x256, .f32⟩ : BufTy).Contents (Elt F) → (⟨S4x1x256x256, .f32⟩ : BufTy).Contents (Elt F)),
    reshape main_v63 main_v64 rfl shapeCasts_S4x1x256x256_S4x256x256,
    unary main_v64 main_v65 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v65 main_v66 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v66 main_v62 main_v67 (mulf : (⟨S4x64x256x256, .f32⟩ : BufTy).Contents (Elt F) → (⟨S4x64x256x256, .f32⟩ : BufTy).Contents (Elt F) → (⟨S4x64x256x256, .f32⟩ : BufTy).Contents (Elt F)),
    binary main_v61 main_v67 main_v68 (addf : (⟨S4x64x256x256, .f32⟩ : BufTy).Contents (Elt F) → (⟨S4x64x256x256, .f32⟩ : BufTy).Contents (Elt F) → (⟨S4x64x256x256, .f32⟩ : BufTy).Contents (Elt F)),
    unary main_v0 main_v69 ((extractStridedSlice S4x64x256x256 ![0, 0, 2, 2] · slices_S4x64x258x258_S4x64x256x256_0_0_2_2) : (⟨S4x64x258x258, .f32⟩ : BufTy).Contents (Elt F) → (⟨S4x64x256x256, .f32⟩ : BufTy).Contents (Elt F)),
    unary main_v11 main_v70 ((extractStridedSlice S4x1x256x256 ![0, 8, 0, 0] · slices_S4x9x256x256_S4x1x256x256_0_8_0_0) : (⟨S4x9x256x256, .f32⟩ : BufTy).Contents (Elt F) → (⟨S4x1x256x256, .f32⟩ : BufTy).Contents (Elt F)),
    reshape main_v70 main_v71 rfl shapeCasts_S4x1x256x256_S4x256x256,
    unary main_v71 main_v72 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    unary main_v72 main_v73 (broadcastInDim S4x64x256x256 ![0, 1, 2, 3] bcast_S4x1x256x256_S4x64x256x256_0_1_2_3 : (⟨S4x1x256x256, .f32⟩ : BufTy).Contents (Elt F) → (⟨S4x64x256x256, .f32⟩ : BufTy).Contents (Elt F)),
    binary main_v73 main_v69 main_v74 (mulf : (⟨S4x64x256x256, .f32⟩ : BufTy).Contents (Elt F) → (⟨S4x64x256x256, .f32⟩ : BufTy).Contents (Elt F) → (⟨S4x64x256x256, .f32⟩ : BufTy).Contents (Elt F)),
    binary main_v68 main_v74 main_v75 (addf : (⟨S4x64x256x256, .f32⟩ : BufTy).Contents (Elt F) → (⟨S4x64x256x256, .f32⟩ : BufTy).Contents (Elt F) → (⟨S4x64x256x256, .f32⟩ : BufTy).Contents (Elt F)) ]

/-- @main's operations, in order. -/
abbrev ops : List (HloOp τ sig (Elt F)) := (opsPad ++ (opsSoft ++ opsTaps0)) ++ opsTaps1

set_option maxRecDepth 16384 in
set_option maxHeartbeats 4000000 in
/-- The first window of @main is the first three stretches (the padding function's body unfolds at its call). -/
theorem main_part0_eq (c : Dev nD) : main_part0 (F := F) c = seq (opsPad ++ (opsSoft ++ opsTaps0)) := rfl

set_option maxRecDepth 16384 in
set_option maxHeartbeats 4000000 in
/-- The second window is the last stretch. -/
theorem main_part1_eq (c : Dev nD) : main_part1 (F := F) c = seq opsTaps1 := rfl

theorem main_eq (c : Dev nD) : main (F := F) c = seq ops := by
  simp only [ops, seq_append (opsPad ++ (opsSoft ++ opsTaps0)) opsTaps1, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsPad_sub : (opsPad : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub ..⟩
theorem opsSoft_sub : (opsSoft : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsTaps0_sub : (opsTaps0 : List (HloOp τ sig (Elt F))).Forall fun op => op.bufs ⊆ tcRefs τ sig :=
  ⟨nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
theorem opsTaps1_sub : (opsTaps1 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with ((h | h | h) | h)
    exacts [List.forall_iff_forall_mem.mp opsPad_sub op h, List.forall_iff_forall_mem.mp opsSoft_sub op h,
      List.forall_iff_forall_mem.mp opsTaps0_sub op h, List.forall_iff_forall_mem.mp opsTaps1_sub op h]

/-- On every device, from any memory with zero counters: every weakly fair execution of @main terminates, and every
    buffer ends at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefValue.lean ====
/-
  What the reference's operations leave in its result buffer, as one term of the argument arrays.

  The four stretches of the run are read one after the other.  The padding stretch leaves `Cert.DynConv.padOf` of the
  input image; the softmax stretch leaves the weights (`softOf` of the logits: their maximum over the nine taps
  subtracted, the exponential, the quotient by the sum over the nine taps); each tap's seven operations leave the
  tap's weights, repeated over the sixty-four channels, times the 256 × 256 window of the padded image (dy, dx) from
  its corner (`tapOf`), added onto what the taps before it left, the first onto zero.  No stretch writes an argument
  or a buffer an earlier stretch left for a later one.
-/
import proofs.«141369_j7799660609550_1_alg».proof.Proof.RefRun
import proofs.«141369_j7799660609550_1_alg».proof.Proof.Pad
import Idealize.ShloMosaic.PureOps.Ideal

noncomputable section

namespace Cert.ReferenceIdeal.HostValue

open Cert.ReferenceIdeal Cert.ReferenceIdeal.Gen Cert.ReferenceIdeal.HostRun Idealize.ShloMosaic Idealize.ShloMosaic.TcCoe
open Idealize.SL.Sem Idealize.ShloMosaic.StableHlo Cert.DynConv

/-- A line of operations run in two stretches. -/
theorem after_append (a b : List (HloOp τ sig (Elt Ideal))) (V : Valuation τ sig (Elt Ideal)) :
    after (a ++ b) V = after b (after a V) := by
  induction a generalizing V with
  | nil => rfl
  | cons op a ih => exact ih _

/-! ## The stages as functions of arrays -/

/-- The weights: the softmax of the logits over the nine taps. -/
def softOf (k : S4x9x256x256.Idx → EReal) : S4x9x256x256.Idx → EReal :=
  let mx : S4x256x256.Idx → EReal :=
    maximumf (F := Ideal) (φ := .f32) (broadcastInDim S4x256x256 ![] bcast_S_S4x256x256 (constant (F := Ideal) S_ .f32 0xFF800000#32))
      (Host.reduce (FloatOps.maximumf (F := Ideal) (φ := .f32)) k (constant (F := Ideal) S_ .f32 0xFF800000#32) reducesTo_S4x9x256x256_S4x256x256_d1 h_S_)
  let e : S4x9x256x256.Idx → EReal :=
    Host.exp (F := Ideal) (φ := .f32) (subf (F := Ideal) (φ := .f32) k
      (broadcastInDim S4x9x256x256 ![0, 1, 2, 3] bcast_S4x1x256x256_S4x9x256x256_0_1_2_3
        (broadcastInDim S4x1x256x256 ![0, 2, 3] bcast_S4x256x256_S4x1x256x256_0_2_3 mx)))
  Host.divf (F := Ideal) (φ := .f32) e
    (broadcastInDim S4x9x256x256 ![0, 1, 2, 3] bcast_S4x1x256x256_S4x9x256x256_0_1_2_3
      (broadcastInDim S4x1x256x256 ![0, 2, 3] bcast_S4x256x256_S4x1x256x256_0_2_3
        (Host.reduceAdd (F := Ideal) (φ := .f32) e (constant (F := Ideal) S_ .f32 0x00000000#32) reducesTo_S4x9x256x256_S4x256x256_d1 h_S_)))

/-- One tap's product: tap `t`'s weights repeated over the channels, times the padded image's window (dy, dx) from
    its corner. -/
def tapOf (xp : S4x64x258x258.Idx → EReal) (kw : S4x9x256x256.Idx → EReal) (t dy dx : Nat)
    (hk : S4x9x256x256.Slices ![0, t, 0, 0] S4x1x256x256) (hp : S4x64x258x258.Slices ![0, 0, dy, dx] S4x64x256x256) :
    S4x64x256x256.Idx → EReal :=
  mulf (F := Ideal) (φ := .f32)
    (broadcastInDim S4x64x256x256 ![0, 1, 2, 3] bcast_S4x1x256x256_S4x64x256x256_0_1_2_3
      (broadcastInDim S4x1x256x256 ![0, 2, 3] bcast_S4x256x256_S4x1x256x256_0_2_3
        (shapeCast S4x256x256 (extractStridedSlice S4x1x256x256 ![0, t, 0, 0] kw hk) shapeCasts_S4x1x256x256_S4x256x256)))
    (extractStridedSlice S4x64x256x256 ![0, 0, dy, dx] xp hp)

/-- Zero, then the first six taps' products added in order. -/
def firstSix (xp : S4x64x258x258.Idx → EReal) (kw : S4x9x256x256.Idx → EReal) : S4x64x256x256.Idx → EReal :=
  addf (F := Ideal) (φ := .f32) (addf (F := Ideal) (φ := .f32) (addf (F := Ideal) (φ := .f32) (addf (F := Ideal) (φ := .f32)
    (addf (F := Ideal) (φ := .f32) (addf (F := Ideal) (φ := .f32)
      (broadcastInDim S4x64x256x256 ![] bcast_S_S4x64x256x256 (constant (F := Ideal) S_ .f32 0x00000000#32))
      (tapOf xp kw 0 0 0 slices_S4x9x256x256_S4x1x256x256_0_0_0_0 slices_S4x64x258x258_S4x64x256x256_0_0_0_0))
      (tapOf xp kw 1 0 1 slices_S4x9x256x256_S4x1x256x256_0_1_0_0 slices_S4x64x258x258_S4x64x256x256_0_0_0_1))
      (tapOf xp kw 2 0 2 slices_S4x9x256x256_S4x1x256x256_0_2_0_0 slices_S4x64x258x258_S4x64x256x256_0_0_0_2))
      (tapOf xp kw 3 1 0 slices_S4x9x256x256_S4x1x256x256_0_3_0_0 slices_S4x64x258x258_S4x64x256x256_0_0_1_0))
      (tapOf xp kw 4 1 1 slices_S4x9x256x256_S4x1x256x256_0_4_0_0 slices_S4x64x258x258_S4x64x256x256_0_0_1_1))
      (tapOf xp kw 5 1 2 slices_S4x9x256x256_S4x1x256x256_0_5_0_0 slices_S4x64x258x258_S4x64x256x256_0_0_1_2)

/-- The last three taps' products added onto what was there. -/
def lastThree (acc : S4x64x256x256.Idx → EReal) (xp : S4x64x258x258.Idx → EReal) (kw : S4x9x256x256.Idx → EReal) :
    S4x64x256x256.Idx → EReal :=
  addf (F := Ideal) (φ := .f32) (addf (F := Ideal) (φ := .f32) (addf (F := Ideal) (φ := .f32) acc
      (tapOf xp kw 6 2 0 slices_S4x9x256x256_S4x1x256x256_0_6_0_0 slices_S4x64x258x258_S4x64x256x256_0_0_2_0))
      (tapOf xp kw 7 2 1 slices_S4x9x256x256_S4x1x256x256_0_7_0_0 slices_S4x64x258x258_S4x64x256x256_0_0_2_1))
      (tapOf xp kw 8 2 2 slices_S4x9x256x256_S4x1x256x256_0_8_0_0 slices_S4x64x258x258_S4x64x256x256_0_0_2_2)

/-! ## The stretches, read -/

variable (W : Valuation τ sig (Elt Ideal))

-- both sides are one and the same composition of slices, reversals and concatenations of the input image
attribute [local irreducible] concatenate Host.reverse extractStridedSlice in
set_option maxHeartbeats 1000000 in
theorem pad_v0 : after opsPad W (main_v0 : DevRef τ sig) = padOf (W (main_arg0 : DevRef τ sig) : S4x64x256x256.Idx → EReal) := by
  after_results
  rfl
theorem pad_arg0 : after opsPad W (main_arg0 : DevRef τ sig) = W (main_arg0 : DevRef τ sig) := by after_results
theorem pad_arg1 : after opsPad W (main_arg1 : DevRef τ sig) = W (main_arg1 : DevRef τ sig) := by after_results

theorem soft_v11 : after opsSoft W (main_v11 : DevRef τ sig) = softOf (W (main_arg1 : DevRef τ sig)) := by
  after_results
  rfl
theorem soft_v0 : after opsSoft W (main_v0 : DevRef τ sig) = W (main_v0 : DevRef τ sig) := by after_results
theorem soft_arg0 : after opsSoft W (main_arg0 : DevRef τ sig) = W (main_arg0 : DevRef τ sig) := by after_results
theorem soft_arg1 : after opsSoft W (main_arg1 : DevRef τ sig) = W (main_arg1 : DevRef τ sig) := by after_results

set_option maxRecDepth 8192 in
set_option maxHeartbeats 2000000 in
theorem taps0_v54 : after opsTaps0 W (main_v54 : DevRef τ sig)
    = firstSix (W (main_v0 : DevRef τ sig)) (W (main_v11 : DevRef τ sig)) := by
  after_results_simp
  rfl
set_option maxRecDepth 8192 in
set_option maxHeartbeats 2000000 in
theorem taps0_v0 : after opsTaps0 W (main_v0 : DevRef τ sig) = W (main_v0 : DevRef τ sig) := by after_results_simp
set_option maxRecDepth 8192 in
set_option maxHeartbeats 2000000 in
theorem taps0_v11 : after opsTaps0 W (main_v11 : DevRef τ sig) = W (main_v11 : DevRef τ sig) := by after_results_simp
set_option maxRecDepth 8192 in
set_option maxHeartbeats 2000000 in
theorem taps0_arg0 : after opsTaps0 W (main_arg0 : DevRef τ sig) = W (main_arg0 : DevRef τ sig) := by after_results_simp
set_option maxRecDepth 8192 in
set_option maxHeartbeats 2000000 in
theorem taps0_arg1 : after opsTaps0 W (main_arg1 : DevRef τ sig) = W (main_arg1 : DevRef τ sig) := by after_results_simp

set_option maxHeartbeats 1000000 in
theorem taps1_v75 : after opsTaps1 W (main_v75 : DevRef τ sig)
    = lastThree (W (main_v54 : DevRef τ sig)) (W (main_v0 : DevRef τ sig)) (W (main_v11 : DevRef τ sig)) := by
  after_results_simp
  rfl
set_option maxHeartbeats 1000000 in
theorem taps1_arg0 : after opsTaps1 W (main_arg0 : DevRef τ sig) = W (main_arg0 : DevRef τ sig) := by after_results_simp
set_option maxHeartbeats 1000000 in
theorem taps1_arg1 : after opsTaps1 W (main_arg1 : DevRef τ sig) = W (main_arg1 : DevRef τ sig) := by after_results_simp

/-! ## The whole line -/

/-- The reference's result: the nine taps' products of the padded input image and the softmax weights, added in order
    onto zero. -/
theorem result : after ops W (main_v75 : DevRef τ sig)
    = lastThree (firstSix (padOf (W (main_arg0 : DevRef τ sig) : S4x64x256x256.Idx → EReal)) (softOf (W (main_arg1 : DevRef τ sig))))
        (padOf (W (main_arg0 : DevRef τ sig) : S4x64x256x256.Idx → EReal)) (softOf (W (main_arg1 : DevRef τ sig))) := by
  rw [ops, after_append, after_append, after_append, taps1_v75, taps0_v54, taps0_v0, taps0_v11, soft_v11, soft_v0, pad_v0, pad_arg1]

theorem kept_arg0 : after ops W (main_arg0 : DevRef τ sig) = W (main_arg0 : DevRef τ sig) := by
  rw [ops, after_append, after_append, after_append, taps1_arg0, taps0_arg0, soft_arg0, pad_arg0]

theorem kept_arg1 : after ops W (main_arg1 : DevRef τ sig) = W (main_arg1 : DevRef τ sig) := by
  rw [ops, after_append, after_append, after_append, taps1_arg1, taps0_arg1, soft_arg1, pad_arg1]

end Cert.ReferenceIdeal.HostValue

end
-- ==== Proof.RefRead.lean ====
/-
  The reference's result term read at an index.

  At (b, c, h, w): a broadcast of a per-pixel array over the taps or over the channels only renames the index; the
  host's maximum and sum over the tap axis are a maximum and a sum over the nine taps at the pixel; a tap's slice of
  the weights and its window of the padded image are the weight of that tap at the pixel and the padded pixel
  (h + dy, w + dx).  What is left is `Cert.DynConv.out`, with each product's factors in the other order.
-/
import proofs.«141369_j7799660609550_1_alg».proof.Proof.RefValue
import proofs.«141369_j7799660609550_1_alg».proof.Proof.Spec
import Idealize.ShloMosaic.PureOps.Ideal.Laws
import Idealize.ShloMosaic.Lib.ValueLayout
import Idealize.ShloMosaic.Lib.Pipeline.Value

noncomputable section

namespace Cert.ReferenceIdeal.HostRead

open Cert.ReferenceIdeal Cert.ReferenceIdeal.Gen Cert.ReferenceIdeal.HostValue Idealize.ShloMosaic Idealize.ShloMosaic.ValueIdx Cert.DynConv

/-! ## Operations read at an index -/

theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl

/-- A constant broadcast to every index. -/
theorem splat_apply {s : Shape} (dims : Fin 0 → Fin s.rank) (hb : (⟨0, ![]⟩ : Shape).BroadcastsInDim s dims)
    (bits : BitVec 32) (i : s.Idx) :
    broadcastInDim s dims hb (constant (F := Ideal) ⟨0, ![]⟩ .f32 bits) i = Ideal.ofBits .f32 bits :=
  (broadcastInDim_apply dims hb _ i ix0 fun a => a.elim0).trans rfl

/-- A per-pixel array repeated over a new axis of extent `n` after the batch axis: at (b, k, h, w) the array at
    (b, h, w). -/
theorem repeatOverAxis1_apply {n : Nat} (p : (⟨3, ![4, 256, 256]⟩ : Shape).Idx → EReal)
    (h1 : (⟨3, ![4, 256, 256]⟩ : Shape).BroadcastsInDim ⟨4, ![4, 1, 256, 256]⟩ (![0, 2, 3] : Fin 3 → Fin 4))
    (h2 : (⟨4, ![4, 1, 256, 256]⟩ : Shape).BroadcastsInDim ⟨4, ![4, n, 256, 256]⟩ (![0, 1, 2, 3] : Fin 4 → Fin 4))
    (b : Fin 4) (k : Fin n) (h w : Fin 256) :
    broadcastInDim ⟨4, ![4, n, 256, 256]⟩ ![0, 1, 2, 3] h2 (broadcastInDim ⟨4, ![4, 1, 256, 256]⟩ ![0, 2, 3] h1 p) (ix4 b k h w)
      = p (ix3 b h w) := by
  refine (broadcastInDim_apply _ h2 _ (ix4 b k h w) (ix4 b (0 : Fin 1) h w) fun a => ?_).trans
    (broadcastInDim_apply _ h1 p (ix4 b (0 : Fin 1) h w) (ix3 b h w) fun a => ?_)
  · match a with
    | ⟨0, _⟩ => show b.val = if (4 : Nat) = 1 then 0 else b.val; rw [if_neg (by decide)]
    | ⟨1, _⟩ => show 0 = if (1 : Nat) = 1 then 0 else _; rw [if_pos rfl]
    | ⟨2, _⟩ => show h.val = if (256 : Nat) = 1 then 0 else h.val; rw [if_neg (by decide)]
    | ⟨3, _⟩ => show w.val = if (256 : Nat) = 1 then 0 else w.val; rw [if_neg (by decide)]
  · match a with
    | ⟨0, _⟩ => show b.val = if (4 : Nat) = 1 then 0 else b.val; rw [if_neg (by decide)]
    | ⟨1, _⟩ => show h.val = if (256 : Nat) = 1 then 0 else h.val; rw [if_neg (by decide)]
    | ⟨2, _⟩ => show w.val = if (256 : Nat) = 1 then 0 else w.val; rw [if_neg (by decide)]

/-- The host's maximum over the tap axis, at a pixel: the fold of `max` from the initial value over the nine taps. -/
theorem tapsMax_apply (k : S4x9x256x256.Idx → EReal) (init : S_.Idx → EReal) (h' : S4x9x256x256.ReducesTo [1] S4x256x256)
    (hu : 0 < S_.numel) (b : Fin 4) (h w : Fin 256) :
    Host.reduce (FloatOps.maximumf (F := Ideal) (φ := .f32)) k init h' hu (ix3 b h w)
      = (Finset.univ : Finset (Fin 9)).fold max (init (Shape.Idx.first hu)) fun t => k (ix4 b t h w) := by
  have hR : S4x9x256x256.Reduces [1] S4x256x256 := by decide
  refine (Host.reduce_eq_fold_single _ k init h' hR hu (ix3 b h w)).trans ?_
  show (Finset.univ : Finset (Fin 9)).fold max _ (fun t => k (hR.lift (ix3 b h w) t)) = _
  congr 1; funext t; congr 1
  funext a; apply Fin.ext
  match a with
  | ⟨0, _⟩ => rfl
  | ⟨1, _⟩ => rfl
  | ⟨2, _⟩ => rfl
  | ⟨3, _⟩ => rfl

/-- The host's sum over the tap axis, at a pixel: the initial value plus the sum over the nine taps. -/
theorem tapsSum_apply (e : S4x9x256x256.Idx → EReal) (init : S_.Idx → EReal) (h' : S4x9x256x256.ReducesTo [1] S4x256x256)
    (hu : 0 < S_.numel) (b : Fin 4) (h w : Fin 256) :
    Host.reduceAdd (F := Ideal) (φ := .f32) e init h' hu (ix3 b h w)
      = init (Shape.Idx.first hu) + ∑ t : Fin 9, e (ix4 b t h w) := by
  have hR : S4x9x256x256.Reduces [1] S4x256x256 := by decide
  refine (Ideal.hostReduceAdd_single h' hR e _ (ix3 b h w)).trans ?_
  congr 1
  refine Finset.sum_congr rfl fun t _ => congrArg e ?_
  funext a; apply Fin.ext
  match a with
  | ⟨0, _⟩ => rfl
  | ⟨1, _⟩ => rfl
  | ⟨2, _⟩ => rfl
  | ⟨3, _⟩ => rfl

/-! ## The weights -/

/-- The host's softmax at (b, t, h, w) is the softmax weight of tap `t` at the pixel. -/
theorem softOf_apply (k : S4x9x256x256.Idx → EReal) (b : Fin 4) (t : Fin 9) (h w : Fin 256) :
    softOf k (ix4 b t h w) = wgt (B := 4) k b t h w := by
  have hexp : ∀ t' : Fin 9,
      Host.exp (F := Ideal) (φ := .f32) (subf (F := Ideal) (φ := .f32) k
        (broadcastInDim S4x9x256x256 ![0, 1, 2, 3] bcast_S4x1x256x256_S4x9x256x256_0_1_2_3
          (broadcastInDim S4x1x256x256 ![0, 2, 3] bcast_S4x256x256_S4x1x256x256_0_2_3
            (maximumf (F := Ideal) (φ := .f32) (broadcastInDim S4x256x256 ![] bcast_S_S4x256x256 (constant (F := Ideal) S_ .f32 0xFF800000#32))
              (Host.reduce (FloatOps.maximumf (F := Ideal) (φ := .f32)) k (constant (F := Ideal) S_ .f32 0xFF800000#32)
                reducesTo_S4x9x256x256_S4x256x256_d1 h_S_))))) (ix4 b t' h w)
        = expo (B := 4) k b t' h w := by
    intro t'
    rw [hostExp_apply, subf_apply, repeatOverAxis1_apply, maximumf_apply, splat_apply, tapsMax_apply, constant_apply]
    rfl
  unfold softOf wgt expSum
  dsimp only
  rw [hostDivf_apply, repeatOverAxis1_apply, tapsSum_apply, constant_apply, Ideal.ofBits_zero_f32, zero_add, hexp t]
  simp only [hexp]

/-! ## One tap -/

/-- A tap's product at (b, c, h, w): the padded pixel (dy + h, dx + w) of channel c times the tap's weight at the pixel. -/
theorem tapOf_apply (xp : S4x64x258x258.Idx → EReal) (kw : S4x9x256x256.Idx → EReal) (t dy dx : Nat)
    (hk : S4x9x256x256.Slices ![0, t, 0, 0] S4x1x256x256) (hp : S4x64x258x258.Slices ![0, 0, dy, dx] S4x64x256x256)
    (tt : Fin 9) (htt : tt.val = t) (hdy : dy ≤ 2) (hdx : dx ≤ 2) (b : Fin 4) (c : Fin 64) (h w : Fin 256) :
    tapOf xp kw t dy dx hk hp (ix4 b c h w) = xp (ix4 b c (sh dy h hdy) (sh dx w hdx)) * kw (ix4 b tt h w) := by
  unfold tapOf
  rw [mulf_apply, repeatOverAxis1_apply, mul_comm]
  congr 1
  · refine extractStridedSlice_apply _ xp hp (ix4 b c h w) (ix4 b c (sh dy h hdy) (sh dx w hdx)) fun a => ?_
    match a with
    | ⟨0, _⟩ => show b.val = 0 + b.val; omega
    | ⟨1, _⟩ => show c.val = 0 + c.val; omega
    | ⟨2, _⟩ => show dy + h.val = dy + h.val; rfl
    | ⟨3, _⟩ => show dx + w.val = dx + w.val; rfl
  · refine (shapeCast_apply _ _ (ix3 b h w) (ix4 b (0 : Fin 1) h w) ?_).trans
      (extractStridedSlice_apply _ kw hk (ix4 b (0 : Fin 1) h w) (ix4 b tt h w) fun a => ?_)
    · rw [Shape.rowMajor_val_four, Shape.rowMajor_val_three]
      show ((b.val * 1 + 0) * 256 + h.val) * 256 + w.val = (b.val * 256 + h.val) * 256 + w.val
      omega
    · match a with
      | ⟨0, _⟩ => show b.val = 0 + b.val; omega
      | ⟨1, _⟩ => show tt.val = t + 0; omega
      | ⟨2, _⟩ => show h.val = 0 + h.val; omega
      | ⟨3, _⟩ => show w.val = 0 + w.val; omega

/-! ## The result -/

/-- The reference's result term at (b, c, h, w) is the formula. -/
theorem result_apply (xp : S4x64x258x258.Idx → EReal) (k : S4x9x256x256.Idx → EReal) (b : Fin 4) (c : Fin 64) (h w : Fin 256) :
    lastThree (firstSix xp (softOf k)) xp (softOf k) (ix4 b c h w) = out (B := 4) (C := 64) xp k b c h w := by
  unfold lastThree firstSix out tap
  rw [addf_apply, addf_apply, addf_apply, addf_apply, addf_apply, addf_apply, addf_apply, addf_apply, addf_apply,
    splat_apply,
    tapOf_apply xp _ 0 0 0 _ _ 0 rfl (by omega) (by omega), tapOf_apply xp _ 1 0 1 _ _ 1 rfl (by omega) (by omega),
    tapOf_apply xp _ 2 0 2 _ _ 2 rfl (by omega) (by omega), tapOf_apply xp _ 3 1 0 _ _ 3 rfl (by omega) (by omega),
    tapOf_apply xp _ 4 1 1 _ _ 4 rfl (by omega) (by omega), tapOf_apply xp _ 5 1 2 _ _ 5 rfl (by omega) (by omega),
    tapOf_apply xp _ 6 2 0 _ _ 6 rfl (by omega) (by omega), tapOf_apply xp _ 7 2 1 _ _ 7 rfl (by omega) (by omega),
    tapOf_apply xp _ 8 2 2 _ _ 8 rfl (by omega) (by omega)]
  simp only [softOf_apply]

/-- The reference's result term is the formula of the padded image and the logits. -/
theorem result_eq (xp : S4x64x258x258.Idx → EReal) (k : S4x9x256x256.Idx → EReal) :
    lastThree (firstSix xp (softOf k)) xp (softOf k) = G (B := 4) (C := 64) xp k := by
  funext i
  obtain ⟨b, c, h, w, rfl⟩ : ∃ (b : Fin 4) (c : Fin 64) (h w : Fin 256), i = ix4 b c h w := ⟨i 0, i 1, i 2, i 3, eq_ix4 i⟩
  rw [result_apply, G_apply]

end Cert.ReferenceIdeal.HostRead

end
-- ==== Proof.lean ====
/-
  A 3×3 convolution whose nine weights vary from pixel to pixel (the weights a softmax, over the nine taps, of nine
  logits per pixel), on an image padded by reflection: a kernel that computes it block by block — one batch entry and
  sixteen channels at a time, the nine shifted windows of the padded block each times its weight plane, added in order
  onto zero — against the same sum written over the whole arrays.

  At the ideal values both programs compute, at (b, c, h, w),

      0 + Σ over (dy, dx) in row-major order of  pad(x)[b, c, h + dy, w + dx] · softmax_t(k[b, ·, h, w])[3·dy + dx],

  with the same padded image (both build it by the same slices, reversals and concatenations: it is never opened), the
  same maximum, exponentials, sum and quotient at each pixel, and the same order of the nine additions.  The only
  difference is the order of the two factors of each product, and multiplication of extended reals commutes; no
  finiteness is used.  The kernel's side is `Cert.KernelIdeal.Array.run` (the body's arithmetic at an index, the blocks
  tiling the result); the reference's is its run read at an index (`Cert.ReferenceIdeal.HostRead.result_eq`).
-/
import proofs.«141369_j7799660609550_1_alg».proof.Defs
import proofs.«141369_j7799660609550_1_alg».proof.Proof.Gen.Kernel
import proofs.«141369_j7799660609550_1_alg».proof.Proof.Gen.Kernel.Skeleton
import proofs.«141369_j7799660609550_1_alg».proof.Proof.Gen.Kernel.Launch
import proofs.«141369_j7799660609550_1_alg».proof.Proof.Gen.Kernel.Points
import proofs.«141369_j7799660609550_1_alg».proof.Proof.Gen.Kernel.Frame
import proofs.«141369_j7799660609550_1_alg».proof.Proof.Gen.KernelIdeal
import proofs.«141369_j7799660609550_1_alg».proof.Proof.Gen.KernelIdeal.Skeleton
import proofs.«141369_j7799660609550_1_alg».proof.Proof.Gen.KernelIdeal.Launch
import proofs.«141369_j7799660609550_1_alg».proof.Proof.Gen.KernelIdeal.Points
import proofs.«141369_j7799660609550_1_alg».proof.Proof.Gen.KernelIdeal.Frame
import proofs.«141369_j7799660609550_1_alg».proof.Proof.Gen.ReferenceIdeal
import proofs.«141369_j7799660609550_1_alg».proof.Proof.Gen.Pre_finite_inputs
import proofs.«141369_j7799660609550_1_alg».proof.Proof.KernelArray
import proofs.«141369_j7799660609550_1_alg».proof.Proof.RefRead
import Idealize.ShloMosaic.Adequacy
import Idealize.ShloMosaic.Init

noncomputable section

namespace Cert.Proof

open Idealize.ShloMosaic Idealize.SL.Sem Cert.DynConv

/-- The reference's run, read: its result is the formula of the padded input image and the logits, and its arguments
    end as launched. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v75)
          = G (B := 4) (C := 64)
              (padOf (m ((c.tc : Thread Cert.ReferenceIdeal.nD Cert.ReferenceIdeal.τ).loc Cert.ReferenceIdeal.main_arg0) : Cert.ReferenceIdeal.S4x64x256x256.Idx → EReal))
              (m ((c.tc : Thread Cert.ReferenceIdeal.nD Cert.ReferenceIdeal.τ).loc Cert.ReferenceIdeal.main_arg1) : Cert.ReferenceIdeal.S4x9x256x256.Idx → EReal)
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run Cert.ReferenceIdeal.defs _ _).mono (fun _ h c =>
      ⟨(h c Cert.ReferenceIdeal.main_v75).trans
          ((Cert.ReferenceIdeal.HostValue.result _).trans (Cert.ReferenceIdeal.HostRead.result_eq _ _)),
        (h c Cert.ReferenceIdeal.main_arg0).trans (Cert.ReferenceIdeal.HostValue.kept_arg0 _),
        (h c Cert.ReferenceIdeal.main_arg1).trans (Cert.ReferenceIdeal.HostValue.kept_arg1 _)⟩)
    (Cert.ReferenceIdeal.HostRun.run (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result forgotten. -/
theorem frame_referenceIdeal : Cert.frame_ReferenceIdeal := fun m ρ _ =>
  (θ_run Cert.ReferenceIdeal.defs _ _).mono (fun _ h c => (h c).2) (reference_run m ρ)

/-- The idealization rewrote nothing. -/
theorem preserves : Cert.preserves_Kernel_KernelIdeal := trivial

/-- From memories that agree on the arguments both programs end with the formula of the padded input image and the
    logits in their result. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩) (reference_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
